-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S800000x32 : Shape := ⟨2, ![800000, 32]⟩
abbrev S160x128 : Shape := ⟨2, ![160, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x64 .f32) (main_arg14 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S128 .f32) (main_arg9 : FVec F S192x128 .f32) (main_arg10 : FVec F S128 .f32) (main_arg11 : FVec F S128 .f32) (main_arg12 : FVec F S128 .f32) (main_arg13 : FVec F S128x64 .f32) (main_arg14 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S192x128 .f32 := Host.absf main_arg9
  let main_cst_14 : FVec F S_ .f32 := constant S_ .f32 0x7F800000#32
  let main_v40 : FVec F S192x128 .f32 := broadcastInDim S192x128 ![] bcast_S_S192x128 main_cst_14
  let main_v41 : IVec S192x128 1 := cmpf .olt main_v39 main_v40
  let main_c_15 : IVec S_ 1 := constantI S_ 1 1#1
  let main_v42 : IVec S_ 1 := (fun x v => Host.reduce IntOp.andi x v reducesTo_S192x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S192x128 .f32) (main_arg10 : FVec F S128 .f32) (main_arg11 : FVec F S128 .f32) (main_arg12 : FVec F S128 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x64 .f32) (main_arg1 : IVec S2x800000 32) (main_arg2 : FVec F S800000x32 .f32) (main_arg3 : FVec F S160x128 .f32) (main_arg4 : FVec F S128 .f32) (main_arg5 : FVec F S128 .f32) (main_arg6 : FVec F S128 .f32) (main_arg7 : FVec F S128x128 .f32) (main_arg8 : FVec F S128 .f32) (main_arg9 : FVec F S192x128 .f32) (main_arg10 : FVec F S128 .f32) (main_arg11 : FVec F S128 .f32) (main_arg12 : FVec F S128 .f32) (main_arg13 : FVec F S128x64 .f32) (main_arg14 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x64 : Shape := ⟨2, ![100000, 64]⟩
abbrev S2x800000 : Shape := ⟨2, ![2, 800000]⟩
abbrev S800000x32 : Shape := ⟨2, ![800000, 32]⟩
abbrev S160x128 : Shape := ⟨2, ![160, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S800000x128 : Shape := ⟨2, ![800000, 128]⟩
abbrev S6400x160 : Shape := ⟨2, ![6400, 160]⟩
abbrev S6400x128 : Shape := ⟨2, ![6400, 128]⟩
abbrev S1x128 : Shape := ⟨2, ![1, 128]⟩
abbrev S6400 : Shape := ⟨1, ![6400]⟩
abbrev S6400x1 : Shape := ⟨2, ![6400, 1]⟩
abbrev S100000x128 : Shape := ⟨2, ![100000, 128]⟩
abbrev S100000x192 : Shape := ⟨2, ![100000, 192]⟩
abbrev S5000x192 : Shape := ⟨2, ![5000, 192]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S1x64 : Shape := ⟨2, ![1, 64]⟩

abbrev nBuf : Space → Nat
  | .hbm => 45
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S800000x32, .f32⟩
  | .hbm, ⟨3, _⟩ => ⟨S160x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x160, .f32⟩
  | .hbm, ⟨38, _⟩ => ⟨S800000x128, .f32⟩
  | .hbm, ⟨39, _⟩ => ⟨S_, .f32⟩
  | .hbm, ⟨40, _⟩ => ⟨S100000x128, .f32⟩
  | .hbm, ⟨41, _⟩ => ⟨S800000x1, .i32⟩
  | .hbm, ⟨42, _⟩ => ⟨S100000x128, .f32⟩
  | .hbm, ⟨43, _⟩ => ⟨S100000x192, .f32⟩
  | .hbm, ⟨44, _⟩ => ⟨S100000x64, .f32⟩
  | .local _ .vmem, ⟨0, _⟩ => ⟨S6400x160, .f32⟩
  | .local _ .vmem, ⟨1, _⟩ => ⟨S6400x160, .f32⟩
  | .local _ .vmem, ⟨2, _⟩ => ⟨S160x128, .f32⟩
  | .local _ .vmem, ⟨3, _⟩ => ⟨S128, .f32⟩
  | .local _ .vmem, ⟨4, _⟩ => ⟨S128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S6400x128, .f32⟩
  | .local _ .vmem, ⟨9, _⟩ => ⟨S6400x128, .f32⟩
  | .local _ .vmem, ⟨10, _⟩ => ⟨S5000x192, .f32⟩
  | .local _ .vmem, ⟨11, _⟩ => ⟨S5000x192, .f32⟩
  | .local _ .vmem, ⟨12, _⟩ => ⟨S192x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128x64, .f32⟩
  | .local _ .vmem, ⟨17, _⟩ => ⟨S64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  inb_S6400x160_S6400x160_0_0 : ∀ a, (![0, 0] : Fin 2 → Nat) a + S6400x160.size a ≤ S6400x160.size a
  h_S6400x160 : 0 < S6400x160.numel
  shapeCasts_S6400x160_S6400x160 : S6400x160.ShapeCasts S6400x160
  bitsLt_bf16_f32 : FTy.bits .bf16 < FTy.bits .f32
  inb_S160x128_S160x128_0_0 : ∀ a, (![0, 0] : Fin 2 → Nat) a + S160x128.size a ≤ S160x128.size a
  h_S160x128 : 0 < S160x128.numel
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  reduces_S6400x128_S6400 : S6400x128.Reduces [1] S6400
  shapeCasts_S6400_S6400x1 : S6400.ShapeCasts S6400x1
  broadcasts_S6400x1_S6400x128 : S6400x1.Broadcasts S6400x128
  inb_S128x128_S128x128_0_0 : ∀ a, (![0, 0] : Fin 2 → Nat) a + S128x128.size a ≤ S128x128.size a
  h_S128x128 : 0 < S128x128.numel
  inb_S6400x128_S6400x128_0_0 : ∀ a, (![0, 0] : Fin 2 → Nat) a + S6400x128.size a ≤ S6400x128.size a
  h_S6400x128 : 0 < S6400x128.numel
  bcast_S_S100000x128 : S_.BroadcastsInDim S100000x128 (![] : Fin 0 → Fin S100000x128.rank)
  concatenates_S100000x64_S100000x128_S100000x192_d1 : Shape.Concatenates [S100000x64, S100000x128] S100000x192 1
  inb_S5000x192_S5000x192_0_0 : ∀ a, (![0, 0] : Fin 2 → Nat) a + S5000x192.size a ≤ S5000x192.size a
  h_S5000x192 : 0 < S5000x192.numel
  shapeCasts_S5000x192_S5000x192 : S5000x192.ShapeCasts S5000x192
  slices_S5000x192_o0_0_S5000x64 : S5000x192.Slices ![0, 0] S5000x64
  inb_S192x128_S192x128_0_0 : ∀ a, (![0, 0] : Fin 2 → Nat) a + S192x128.size a ≤ S192x128.size a
  h_S192x128 : 0 < S192x128.numel
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x64_S800000x1_S800000x64_1_0_n_n_0_1_164_wf : GatherDims.WF S100000x64 S800000x1 S800000x64 [1] [0] [] [0] [] 1 ![1, 64]
  dot_S6400x160_S160x128_S6400x128_1_0_0_1_n_n_wf : DotDims.WF S6400x160 S160x128 S6400x128 [1] [0] [0] [1] [] []
  dot_S6400x128_S128x128_S6400x128_1_0_0_1_n_n_wf : DotDims.WF S6400x128 S128x128 S6400x128 [1] [0] [0] [1] [] []
  scatter_S100000x128_S800000x1_S800000x128_1_0_0_1_wf : ScatterDims.WF S100000x128 S800000x1 S800000x128 [1] [0] [0] 1
  dot_S5000x192_S192x128_S5000x128_1_0_0_1_n_n_wf : DotDims.WF S5000x192 S192x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x160.size a ≤ S800000x160.size a
  hwx0_0 : ∀ i : grid0.Coords, EltTy.bits .f32 = 32 ∨ (Rect.block (s := S800000x160) S6400x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x128.size a ≤ S160x128.size a
  hwx0_1 : ∀ i : grid0.Coords, EltTy.bits .f32 = 32 ∨ (Rect.block (s := S160x128) S160x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S800000x128.size a
  hwx0_7 : ∀ i : grid0.Coords, EltTy.bits .f32 = 32 ∨ (Rect.block (s := S800000x128) S6400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x192.size a ≤ S100000x192.size a
  hwx1_0 : ∀ i : grid1.Coords, EltTy.bits .f32 = 32 ∨ (Rect.block (s := S100000x192) S5000x192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S192x128.size a ≤ S192x128.size a
  hwx1_1 : ∀ i : grid1.Coords, EltTy.bits .f32 = 32 ∨ (Rect.block (s := S192x128) S192x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S6400x160_S160x128_S6400x128_1_0_0_1_n_n : DotDims S6400x160 S160x128 S6400x128 where
  lhsContracting := [1]
  rhsContracting := [0]
  lhsNonContracting := [0]
  rhsNonContracting := [1]
  lhsBatch := []
  rhsBatch := []
  wf := dot_S6400x160_S160x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v18) S6400x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S160x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v23) S5000x192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v24) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S800000x32 : Shape := ⟨2, ![800000, 32]⟩
abbrev S160x128 : Shape := ⟨2, ![160, 128]⟩
abbrev S128 : Shape := ⟨1, ![128]⟩
abbrev S128x128 : Shape := ⟨2, ![128, 128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S800000x128 : Shape := ⟨2, ![800000, 128]⟩
abbrev S1x128 : Shape := ⟨2, ![1, 128]⟩
abbrev S100000x128 : Shape := ⟨2, ![100000, 128]⟩
abbrev S100000x192 : Shape := ⟨2, ![100000, 192]⟩
abbrev S100000 : Shape := ⟨1, ![100000]⟩
abbrev S100000x1 : Shape := ⟨2, ![100000, 1]⟩
abbrev S1x64 : Shape := ⟨2, ![1, 64]⟩

abbrev nBuf : Space → Nat
  | .hbm => 136
  | .vmem => 0
  | .smem => 0
  | _ => 0

abbrev hbmTy0_0 (i : Nat) : BufTy := match i % 128 with
  | 0 => ⟨S100000x64, .f32⟩
  | 1 => ⟨S2x800000, .i32⟩
  | 2 => ⟨S800000x32, .f32⟩
  | 3 => ⟨S160x128, .f32⟩
  | 4 => ⟨S128, .f32⟩
  | 5 => ⟨S128, .f32⟩
  | 6 => ⟨S128, .f32⟩
  | 7 => ⟨S128x128, .f32⟩
  | 8 => ⟨S128, .f32⟩
  | 9 => ⟨S192x128, .f32⟩
  | 10 => ⟨S128, .f32⟩
  | 11 => ⟨S128, .f32⟩
  | 12 => ⟨S128, .f32⟩
  | 13 => ⟨S128x64, .f32⟩
  | 14 => ⟨S64, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x64, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x64, .f32⟩
  | 37 => ⟨S800000x160, .f32⟩
  | 38 => ⟨S800000x128, .f32⟩
  | 39 => ⟨S1x128, .f32⟩
  | 40 => ⟨S800000x128, .f32⟩
  | 41 => ⟨S800000x128, .f32⟩
  | 42 => ⟨S_, .f32⟩
  | 43 => ⟨S800000, .f32⟩
  | 44 => ⟨S800000x1, .f32⟩
  | 45 => ⟨S_, .f32⟩
  | 46 => ⟨S800000x1, .f32⟩
  | 47 => ⟨S800000x1, .f32⟩
  | 48 => ⟨S800000x128, .f32⟩
  | 49 => ⟨S800000x128, .f32⟩
  | 50 => ⟨S800000x128, .f32⟩
  | 51 => ⟨S_, .f32⟩
  | 52 => ⟨S800000, .f32⟩
  | 53 => ⟨S800000x1, .f32⟩
  | 54 => ⟨S_, .f32⟩
  | 55 => ⟨S800000x1, .f32⟩
  | 56 => ⟨S800000x1, .f32⟩
  | 57 => ⟨S800000x128, .f32⟩
  | 58 => ⟨S800000x128, .f32⟩
  | 59 => ⟨S_, .f32⟩
  | 60 => ⟨S800000x1, .f32⟩
  | 61 => ⟨S800000x1, .f32⟩
  | 62 => ⟨S800000x1, .f32⟩
  | 63 => ⟨S800000x128, .f32⟩
  | 64 => ⟨S800000x128, .f32⟩
  | 65 => ⟨S1x128, .f32⟩
  | 66 => ⟨S800000x128, .f32⟩
  | 67 => ⟨S800000x128, .f32⟩
  | 68 => ⟨S1x128, .f32⟩
  | 69 => ⟨S800000x128, .f32⟩
  | 70 => ⟨S800000x128, .f32⟩
  | 71 => ⟨S800000x128, .f32⟩
  | 72 => ⟨S800000x128, .f32⟩
  | 73 => ⟨S_, .f32⟩
  | 74 => ⟨S800000x128, .f32⟩
  | 75 => ⟨S800000x128, .f32⟩
  | 76 => ⟨S_, .f32⟩
  | 77 => ⟨S800000x128, .f32⟩
  | 78 => ⟨S800000x128, .f32⟩
  | 79 => ⟨S800000x128, .f32⟩
  | 80 => ⟨S800000x128, .f32⟩
  | 81 => ⟨S1x128, .f32⟩
  | 82 => ⟨S800000x128, .f32⟩
  | 83 => ⟨S800000x128, .f32⟩
  | 84 => ⟨S_, .f32⟩
  | 85 => ⟨S100000x128, .f32⟩
  | 86 => ⟨S800000x1, .i32⟩
  | 87 => ⟨S100000x128, .f32⟩
  | 88 => ⟨S100000x192, .f32⟩
  | 89 => ⟨S100000x128, .f32⟩
  | 90 => ⟨S1x128, .f32⟩
  | 91 => ⟨S100000x128, .f32⟩
  | 92 => ⟨S100000x128, .f32⟩
  | 93 => ⟨S_, .f32⟩
  | 94 => ⟨S100000, .f32⟩
  | 95 => ⟨S100000x1, .f32⟩
  | 96 => ⟨S_, .f32⟩
  | 97 => ⟨S100000x1, .f32⟩
  | 98 => ⟨S100000x1, .f32⟩
  | 99 => ⟨S100000x128, .f32⟩
  | 100 => ⟨S100000x128, .f32⟩
  | 101 => ⟨S100000x128, .f32⟩
  | 102 => ⟨S_, .f32⟩
  | 103 => ⟨S100000, .f32⟩
  | 104 => ⟨S100000x1, .f32⟩
  | 105 => ⟨S_, .f32⟩
  | 106 => ⟨S100000x1, .f32⟩
  | 107 => ⟨S100000x1, .f32⟩
  | 108 => ⟨S100000x128, .f32⟩
  | 109 => ⟨S100000x128, .f32⟩
  | 110 => ⟨S_, .f32⟩
  | 111 => ⟨S100000x1, .f32⟩
  | 112 => ⟨S100000x1, .f32⟩
  | 113 => ⟨S100000x1, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S100000x128, .f32⟩
  | 123 => ⟨S100000x128, .f32⟩
  | 124 => ⟨S_, .f32⟩
  | 125 => ⟨S100000x128, .f32⟩
  | 126 => ⟨S100000x128, .f32⟩
  | 127 => ⟨S_, .f32⟩
  | _ => ⟨S100000x64, .f32⟩

abbrev hbmTy0_1 (i : Nat) : BufTy := match i % 128 with
  | 0 => ⟨S100000x128, .f32⟩
  | 1 => ⟨S100000x128, .f32⟩
  | 2 => ⟨S100000x128, .f32⟩
  | 3 => ⟨S100000x64, .f32⟩
  | 4 => ⟨S1x64, .f32⟩
  | 5 => ⟨S100000x64, .f32⟩
  | 6 => ⟨S100000x64, .f32⟩
  | 7 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst : Ref sig .tc := ⟨.hbm, 42, rfl⟩
abbrev main_v23 : Ref sig .tc := ⟨.hbm, 43, rfl⟩
abbrev main_v24 : Ref sig .tc := ⟨.hbm, 44, rfl⟩
abbrev main_cst_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_7 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_cst_9 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_10 : Ref sig .tc := ⟨.hbm, 102, rfl⟩
abbrev main_v67 : Ref sig .tc := ⟨.hbm, 103, rfl⟩
abbrev main_v68 : Ref sig .tc := ⟨.hbm, 104, rfl⟩
abbrev main_cst_11 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_12 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x32_S800000x160_d1 : Shape.Concatenates [S800000x64, S800000x64, S800000x32] S800000x160 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  reducesTo_S800000x128_S800000_d1 : S800000x128.ReducesTo [1] S800000
  h_S_ : 0 < S_.numel
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S800000x128 : S_.BroadcastsInDim S800000x128 (![] : Fin 0 → Fin S800000x128.rank)
  bcast_S_S100000x128 : S_.BroadcastsInDim S100000x128 (![] : Fin 0 → Fin S100000x128.rank)
  concatenates_S100000x64_S100000x128_S100000x192_d1 : Shape.Concatenates [S100000x64, S100000x128] S100000x192 1
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  dot_S800000x160_S160x128_S800000x128_1_0_0_1_n_n_wf : DotDims.WF S800000x160 S160x128 S800000x128 [1] [0] [0] [1] [] []
  dot_S800000x128_S128x128_S800000x128_1_0_0_1_n_n_wf : DotDims.WF S800000x128 S128x128 S800000x128 [1] [0] [0] [1] [] []
  scatter_S100000x128_S800000x1_S800000x128_1_0_0_1_wf : ScatterDims.WF S100000x128 S800000x1 S800000x128 [1] [0] [0] 1
  dot_S100000x192_S192x128_S100000x128_1_0_0_1_n_n_wf : DotDims.WF S100000x192 S192x128 S100000x128 [1] [0] [0] [1] [] []
  dot_S100000x128_S128x64_S100000x64_1_0_0_1_n_n_wf : DotDims.WF S100000x128 S128x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.FrameK.lean ====
/-
  The frame of the two-region program, at any float instance `F`, and its run with every array named.

  @main is a stretch of host operations (the two row gathers and their concatenation with the edge features), the
  message perceptron's region on a grid of 125 points, a second stretch (the scatter-add of the messages over the
  destination nodes and its concatenation with the node features), and the update perceptron's region on a grid of
  20 points. Each region's kernel has one control path: it loads its seven input blocks whole, computes, and stores the
  output block whole. So per region the proof data are: each input window's staging buffer holds its block of the array
  the region was entered with, at every grid point (the six parameter windows are fetched once and their block index
  never moves); the output window's staging buffer holds the body's payload of those blocks; nothing is owed.

  The buffers' contents at the five boundaries between segments are a fold from the launch memory: a host stretch applies
  its operations, a region replaces its output array by what the write-backs of all grid points leave and keeps
  everything else. No host operation and no write-back touches an argument, so each argument's buffer read through the
  fold is the launch memory's. The run (`run_all`) ends with EVERY unscoped buffer at the last boundary's contents, which
  gives both the frame (`frame`) and, for the value of the result, the result array as what region 1 leaves.
-/
import proofs.«138215_j42571715837967_1_alg».proof.Proof.Gen.Kernel.Launch
import proofs.«138215_j42571715837967_1_alg».proof.Proof.Gen.Kernel.Skeleton
import proofs.«138215_j42571715837967_1_alg».proof.Proof.Gen.Kernel.Points
import proofs.«138215_j42571715837967_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.TwoRegions

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter each region's half is stated at
variable (V : (c : Dev nD) → (b : Ref sig .tc) → Buf (Elt F) ((c : Thread nD τ).loc b))

/-! # Region 0: the call of `cc0__msg_mlp_kernel`, at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    the index did not move since the last fetch, for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    the index did not move since the last fetch, for any proof data whose array is `V`'s and whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    the index did not move since the last fetch, for any proof data whose array is `V`'s and whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or
    the index did not move since the last fetch, for any proof data whose array is `V`'s and whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or
    the index did not move since the last fetch, for any proof data whose array is `V`'s and whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there or
    the index did not move since the last fetch, for any proof data whose array is `V`'s and whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the pipeline fetched it there or
    the index did not move since the last fetch, for any proof data whose array is `V`'s and whose body leaves the
    block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole buffer -/

abbrev r0_a : Rect S6400x160 := Rect.unit (s := S6400x160) ![0, 0] S6400x160.size inb_S6400x160_S6400x160_0_0
abbrev r0_b : Rect S160x128 := Rect.unit (s := S160x128) ![0, 0] S160x128.size inb_S160x128_S160x128_0_0
abbrev r0_v : Rect S128 := Rect.unit (s := S128) ![0] S128.size inb_S128_S128_0
abbrev r0_d : Rect S128x128 := Rect.unit (s := S128x128) ![0, 0] S128x128.size inb_S128x128_S128x128_0_0
abbrev r0_o : Rect S6400x128 := Rect.unit (s := S6400x128) ![0, 0] S6400x128.size inb_S6400x128_S6400x128_0_0

/-- The output window's staging buffer after the body, as a function of the seven input blocks: the one store, of the
    perceptron's payload of the loaded blocks, through the whole buffer. -/
def out0_7 (x0 : Vec F S6400x160 .f32) (x1 : Vec F S160x128 .f32) (x2 : Vec F S128 .f32) (x3 : Vec F S128 .f32) (x4 : Vec F S128 .f32) (x5 : Vec F S128x128 .f32) (x6 : Vec F S128 .f32) : Vec F S6400x128 .f32 :=
  View.canon [⟨r0_o, k0_pay1 (k0_pay2 (View.ld x0 r0_a) (View.ld x1 r0_b) (View.ld x2 r0_v) (View.ld x3 r0_v) (View.ld x4 r0_v) (View.ld x5 r0_d)) (View.ld x6 r0_v)⟩]

/-- The one store covers the buffer. -/
theorem cover0_7 (p0 : Vec F S6400x128 .f32) (y : S6400x128.Idx) :
    ∃ pc ∈ ([⟨r0_o, p0⟩] : List (View.Piece (Elt F) S6400x128 .f32)), y ∈ pc.1.set :=
  View.cover_of_tiled [⟨r0_o, p0⟩] S6400x128.size (by rfl) y

/-! ## The body's triple -/

set_option maxHeartbeats 4000000 in
/-- The kernel body on whole staging buffers — the inputs' at contents `xW`, the output's at anything — runs, without a
    fault, to the inputs' buffers as they were and the output's at `out0_7` of the inputs: the body is seven whole-buffer
    loads, a load of the output buffer whose value is not used, and one whole-buffer store. -/
theorem sound_kernel0 (c : Dev nD) (E : Set ℕ) (i : grid0.Coords) (arg1 : Memref sig .tc .vmem S6400x160 .f32) (harg1 : arg1.IsWhole) (arg2 : Memref sig .tc .vmem S160x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S6400x128 .f32) (harg8 : arg8.IsWhole)
    (x0 : Vec F S6400x160 .f32) (x1 : Vec F S160x128 .f32) (x2 : Vec F S128 .f32) (x3 : Vec F S128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__msg_mlp_kernel i arg1 harg1 arg2 harg2 arg3 harg3 arg4 harg4 arg5 harg5 arg6 harg6 arg7 harg7 arg8 harg8) K := by
  simp only [cc0__msg_mlp_kernel_eq_skeleton]; unfold cc0__msg_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of pipeline 0 on core `c`: the arrays as the region finds them; after the body at point `t` each
    input's buffer at its block and the output's at `out0_7` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the call of `cc1__upd_mlp_kernel`, at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    the index did not move since the last fetch, for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    the index did not move since the last fetch, for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    the index did not move since the last fetch, for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    the index did not move since the last fetch, for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    the index did not move since the last fetch, for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or
    the index did not move since the last fetch, for any proof data whose array is `V`'s and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or
    the index did not move since the last fetch, for any proof data whose array is `V`'s and whose body leaves the
    block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_a : Rect S5000x192 := Rect.unit (s := S5000x192) ![0, 0] S5000x192.size inb_S5000x192_S5000x192_0_0
abbrev r1_b : Rect S192x128 := Rect.unit (s := S192x128) ![0, 0] S192x128.size inb_S192x128_S192x128_0_0
abbrev r1_v : Rect S128 := Rect.unit (s := S128) ![0] S128.size inb_S128_S128_0
abbrev r1_d : Rect S128x64 := Rect.unit (s := S128x64) ![0, 0] S128x64.size inb_S128x64_S128x64_0_0
abbrev r1_w : Rect S64 := Rect.unit (s := S64) ![0] S64.size inb_S64_S64_0
abbrev r1_o : Rect S5000x64 := Rect.unit (s := S5000x64) ![0, 0] S5000x64.size inb_S5000x64_S5000x64_0_0

/-- The output window's staging buffer after the body, as a function of the seven input blocks: the one store, of the
    perceptron's payload of the loaded blocks, through the whole buffer. -/
def out1_7 (x0 : Vec F S5000x192 .f32) (x1 : Vec F S192x128 .f32) (x2 : Vec F S128 .f32) (x3 : Vec F S128 .f32) (x4 : Vec F S128 .f32) (x5 : Vec F S128x64 .f32) (x6 : Vec F S64 .f32) : Vec F S5000x64 .f32 :=
  View.canon [⟨r1_o, k1_pay1 (k1_pay3 (View.ld x0 r1_a)) (k1_pay4 (View.ld x0 r1_a) (View.ld x1 r1_b) (View.ld x2 r1_v) (View.ld x3 r1_v) (View.ld x4 r1_v) (View.ld x5 r1_d)) (View.ld x6 r1_w)⟩]

/-- The one store covers the buffer. -/
theorem cover1_7 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

/-! ## The body's triple -/

set_option maxHeartbeats 4000000 in
/-- The kernel body on whole staging buffers — the inputs' at contents `xW`, the output's at anything — runs, without a
    fault, to the inputs' buffers as they were and the output's at `out1_7` of the inputs: the body is seven whole-buffer
    loads, a load of the output buffer whose value is not used, and one whole-buffer store. -/
theorem sound_kernel1 (c : Dev nD) (E : Set ℕ) (i : grid1.Coords) (arg1 : Memref sig .tc .vmem S5000x192 .f32) (harg1 : arg1.IsWhole) (arg2 : Memref sig .tc .vmem S192x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S5000x64 .f32) (harg8 : arg8.IsWhole)
    (x0 : Vec F S5000x192 .f32) (x1 : Vec F S192x128 .f32) (x2 : Vec F S128 .f32) (x3 : Vec F S128 .f32) (x4 : Vec F S128 .f32) (x5 : Vec F S128x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__upd_mlp_kernel i arg1 harg1 arg2 harg2 arg3 harg3 arg4 harg4 arg5 harg5 arg6 harg6 arg7 harg7 arg8 harg8) K := by
  simp only [cc1__upd_mlp_kernel_eq_skeleton]; unfold cc1__upd_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them; after the body at point `t` each
    input's buffer at its block and the output's at `out1_7` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's four segments from the launch to the return

## The buffers' contents at each boundary between segments -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references. -/
abbrev E1 : (c : Dev nD) → (b : Ref sig .tc) → Buf (Elt F) ((c : Thread nD τ).loc b) := fun c b => W1 m ρ c b
/-- At region 0's exit: its arrays at what the pipeline leaves (an input as entered, the output with every point's
    write-back folded in), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hw _).trans (A_eq0 (E1 m ρ) c w))
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hw _).trans (A_eq1 (E3 m ρ) c w))
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-! ### The arguments end as launched: no host operation writes one, region 0 reads six of them through input windows
    and region 1 the other six, and the first three are no window's array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_in m ρ c 1 rfl
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_in m ρ c 2 rfl
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_in m ρ c 3 rfl
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_in m ρ c 4 rfl
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_in m ρ c 5 rfl
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_in m ρ c 6 rfl
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_in m ρ c 1 rfl
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_in m ρ c 2 rfl
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_in m ρ c 3 rfl
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_in m ρ c 4 rfl
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_in m ρ c 5 rfl
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_in m ρ c 6 rfl
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

/-- Each pipeline's proof data at its region's entry contents: a literal match on the pipeline's number. -/
def pdat : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers at entry and put back at the exit contents; the generator register goes into the
    invariant and comes out; nothing is owed; the kernel has no semaphore of its own. -/
def reg0 : Pipeline.RegionSeg (pcfgs (F := F)) adm (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (E1 m ρ c) (X2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are
    split out of the unscoped buffers at entry and put back at the exit contents; the generator register goes into the
    invariant and comes out; nothing is owed; the kernel has no semaphore of its own. -/
def reg1 : Pipeline.RegionSeg (pcfgs (F := F)) adm (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (E3 m ρ c) (X4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segList : List (Pipeline.Seg (pcfgs (F := F)) adm (pdat m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segList m ρ) := (main_chain c).trans (by chain_rfl)

set_option backward.isDefEq.respectTransparency.types false in
/-- THE RUN. At the compiled mesh, from any memory with zero counters, every weakly fair execution of @main terminates,
    nothing faulting, and in every final state each unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdat m ρ) () cellOf_inj emb₁ defs₀ 𝒱₀ L lv m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩)
    (run_all m ρ)

end Cert.Kernel.TwoRegions

end
-- ==== Proof.FrameKI.lean ====
/-
  The frame of the two-region program, at any float instance `F`, and its run with every array named.

  @main is a stretch of host operations (the two row gathers and their concatenation with the edge features), the
  message perceptron's region on a grid of 125 points, a second stretch (the scatter-add of the messages over the
  destination nodes and its concatenation with the node features), and the update perceptron's region on a grid of
  20 points. Each region's kernel has one control path: it loads its seven input blocks whole, computes, and stores the
  output block whole. So per region the proof data are: each input window's staging buffer holds its block of the array
  the region was entered with, at every grid point (the six parameter windows are fetched once and their block index
  never moves); the output window's staging buffer holds the body's payload of those blocks; nothing is owed.

  The buffers' contents at the five boundaries between segments are a fold from the launch memory: a host stretch applies
  its operations, a region replaces its output array by what the write-backs of all grid points leave and keeps
  everything else. No host operation and no write-back touches an argument, so each argument's buffer read through the
  fold is the launch memory's. The run (`run_all`) ends with EVERY unscoped buffer at the last boundary's contents, which
  gives both the frame (`frame`) and, for the value of the result, the result array as what region 1 leaves.
-/
import proofs.«138215_j42571715837967_1_alg».proof.Proof.Gen.KernelIdeal.Launch
import proofs.«138215_j42571715837967_1_alg».proof.Proof.Gen.KernelIdeal.Skeleton
import proofs.«138215_j42571715837967_1_alg».proof.Proof.Gen.KernelIdeal.Points
import proofs.«138215_j42571715837967_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.TwoRegions

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter each region's half is stated at
variable (V : (c : Dev nD) → (b : Ref sig .tc) → Buf (Elt F) ((c : Thread nD τ).loc b))

/-! # Region 0: the call of `cc0__msg_mlp_kernel`, at the contents `V` the region is entered with -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    the index did not move since the last fetch, for any proof data whose array is `V`'s and whose body leaves the
    block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    the index did not move since the last fetch, for any proof data whose array is `V`'s and whose body leaves the
    block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    the index did not move since the last fetch, for any proof data whose array is `V`'s and whose body leaves the
    block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the pipeline fetched it there or
    the index did not move since the last fetch, for any proof data whose array is `V`'s and whose body leaves the
    block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the pipeline fetched it there or
    the index did not move since the last fetch, for any proof data whose array is `V`'s and whose body leaves the
    block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the pipeline fetched it there or
    the index did not move since the last fetch, for any proof data whose array is `V`'s and whose body leaves the
    block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, whether the pipeline fetched it there or
    the index did not move since the last fetch, for any proof data whose array is `V`'s and whose body leaves the
    block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store go through the whole buffer -/

abbrev r0_a : Rect S6400x160 := Rect.unit (s := S6400x160) ![0, 0] S6400x160.size inb_S6400x160_S6400x160_0_0
abbrev r0_b : Rect S160x128 := Rect.unit (s := S160x128) ![0, 0] S160x128.size inb_S160x128_S160x128_0_0
abbrev r0_v : Rect S128 := Rect.unit (s := S128) ![0] S128.size inb_S128_S128_0
abbrev r0_d : Rect S128x128 := Rect.unit (s := S128x128) ![0, 0] S128x128.size inb_S128x128_S128x128_0_0
abbrev r0_o : Rect S6400x128 := Rect.unit (s := S6400x128) ![0, 0] S6400x128.size inb_S6400x128_S6400x128_0_0

/-- The output window's staging buffer after the body, as a function of the seven input blocks: the one store, of the
    perceptron's payload of the loaded blocks, through the whole buffer. -/
def out0_7 (x0 : Vec F S6400x160 .f32) (x1 : Vec F S160x128 .f32) (x2 : Vec F S128 .f32) (x3 : Vec F S128 .f32) (x4 : Vec F S128 .f32) (x5 : Vec F S128x128 .f32) (x6 : Vec F S128 .f32) : Vec F S6400x128 .f32 :=
  View.canon [⟨r0_o, k0_pay1 (k0_pay2 (View.ld x0 r0_a) (View.ld x1 r0_b) (View.ld x2 r0_v) (View.ld x3 r0_v) (View.ld x4 r0_v) (View.ld x5 r0_d)) (View.ld x6 r0_v)⟩]

/-- The one store covers the buffer. -/
theorem cover0_7 (p0 : Vec F S6400x128 .f32) (y : S6400x128.Idx) :
    ∃ pc ∈ ([⟨r0_o, p0⟩] : List (View.Piece (Elt F) S6400x128 .f32)), y ∈ pc.1.set :=
  View.cover_of_tiled [⟨r0_o, p0⟩] S6400x128.size (by rfl) y

/-! ## The body's triple -/

set_option maxHeartbeats 4000000 in
/-- The kernel body on whole staging buffers — the inputs' at contents `xW`, the output's at anything — runs, without a
    fault, to the inputs' buffers as they were and the output's at `out0_7` of the inputs: the body is seven whole-buffer
    loads, a load of the output buffer whose value is not used, and one whole-buffer store. -/
theorem sound_kernel0 (c : Dev nD) (E : Set ℕ) (i : grid0.Coords) (arg1 : Memref sig .tc .vmem S6400x160 .f32) (harg1 : arg1.IsWhole) (arg2 : Memref sig .tc .vmem S160x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x128 .f32) (harg6 : arg6.IsWhole) (arg7 : Memref sig .tc .vmem S128 .f32) (harg7 : arg7.IsWhole) (arg8 : Memref sig .tc .vmem S6400x128 .f32) (harg8 : arg8.IsWhole)
    (x0 : Vec F S6400x160 .f32) (x1 : Vec F S160x128 .f32) (x2 : Vec F S128 .f32) (x3 : Vec F S128 .f32) (x4 : Vec F S128 .f32) (x5 : Vec F S128x128 .f32) (x6 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__msg_mlp_kernel i arg1 harg1 arg2 harg2 arg3 harg3 arg4 harg4 arg5 harg5 arg6 harg6 arg7 harg7 arg8 harg8) K := by
  simp only [cc0__msg_mlp_kernel_eq_skeleton]; unfold cc0__msg_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover0_7 _)

/-! ## The pipeline's proof data -/

/-- The proof data of pipeline 0 on core `c`: the arrays as the region finds them; after the body at point `t` each
    input's buffer at its block and the output's at `out0_7` of the input blocks; the invariant is the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the call of `cc1__upd_mlp_kernel`, at the contents `V` the region is entered with -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the pipeline fetched it there or
    the index did not move since the last fetch, for any proof data whose array is `V`'s and whose body leaves the
    block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the pipeline fetched it there or
    the index did not move since the last fetch, for any proof data whose array is `V`'s and whose body leaves the
    block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the pipeline fetched it there or
    the index did not move since the last fetch, for any proof data whose array is `V`'s and whose body leaves the
    block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the pipeline fetched it there or
    the index did not move since the last fetch, for any proof data whose array is `V`'s and whose body leaves the
    block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the pipeline fetched it there or
    the index did not move since the last fetch, for any proof data whose array is `V`'s and whose body leaves the
    block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether the pipeline fetched it there or
    the index did not move since the last fetch, for any proof data whose array is `V`'s and whose body leaves the
    block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether the pipeline fetched it there or
    the index did not move since the last fetch, for any proof data whose array is `V`'s and whose body leaves the
    block in place. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev r1_a : Rect S5000x192 := Rect.unit (s := S5000x192) ![0, 0] S5000x192.size inb_S5000x192_S5000x192_0_0
abbrev r1_b : Rect S192x128 := Rect.unit (s := S192x128) ![0, 0] S192x128.size inb_S192x128_S192x128_0_0
abbrev r1_v : Rect S128 := Rect.unit (s := S128) ![0] S128.size inb_S128_S128_0
abbrev r1_d : Rect S128x64 := Rect.unit (s := S128x64) ![0, 0] S128x64.size inb_S128x64_S128x64_0_0
abbrev r1_w : Rect S64 := Rect.unit (s := S64) ![0] S64.size inb_S64_S64_0
abbrev r1_o : Rect S5000x64 := Rect.unit (s := S5000x64) ![0, 0] S5000x64.size inb_S5000x64_S5000x64_0_0

/-- The output window's staging buffer after the body, as a function of the seven input blocks: the one store, of the
    perceptron's payload of the loaded blocks, through the whole buffer. -/
def out1_7 (x0 : Vec F S5000x192 .f32) (x1 : Vec F S192x128 .f32) (x2 : Vec F S128 .f32) (x3 : Vec F S128 .f32) (x4 : Vec F S128 .f32) (x5 : Vec F S128x64 .f32) (x6 : Vec F S64 .f32) : Vec F S5000x64 .f32 :=
  View.canon [⟨r1_o, k1_pay1 (k1_pay3 (View.ld x0 r1_a)) (k1_pay4 (View.ld x0 r1_a) (View.ld x1 r1_b) (View.ld x2 r1_v) (View.ld x3 r1_v) (View.ld x4 r1_v) (View.ld x5 r1_d)) (View.ld x6 r1_w)⟩]

/-- The one store covers the buffer. -/
theorem cover1_7 (p0 : Vec F S5000x64 .f32) (y : S5000x64.Idx) :
    ∃ pc ∈ ([⟨r1_o, p0⟩] : List (View.Piece (Elt F) S5000x64 .f32)), y ∈ pc.1.set :=
  View.cover_of_tiled [⟨r1_o, p0⟩] S5000x64.size (by rfl) y

/-! ## The body's triple -/

set_option maxHeartbeats 4000000 in
/-- The kernel body on whole staging buffers — the inputs' at contents `xW`, the output's at anything — runs, without a
    fault, to the inputs' buffers as they were and the output's at `out1_7` of the inputs: the body is seven whole-buffer
    loads, a load of the output buffer whose value is not used, and one whole-buffer store. -/
theorem sound_kernel1 (c : Dev nD) (E : Set ℕ) (i : grid1.Coords) (arg1 : Memref sig .tc .vmem S5000x192 .f32) (harg1 : arg1.IsWhole) (arg2 : Memref sig .tc .vmem S192x128 .f32) (harg2 : arg2.IsWhole) (arg3 : Memref sig .tc .vmem S128 .f32) (harg3 : arg3.IsWhole) (arg4 : Memref sig .tc .vmem S128 .f32) (harg4 : arg4.IsWhole) (arg5 : Memref sig .tc .vmem S128 .f32) (harg5 : arg5.IsWhole) (arg6 : Memref sig .tc .vmem S128x64 .f32) (harg6 : arg6.IsWhole) (arg7 : Memref sig .tc .vmem S64 .f32) (harg7 : arg7.IsWhole) (arg8 : Memref sig .tc .vmem S5000x64 .f32) (harg8 : arg8.IsWhole)
    (x0 : Vec F S5000x192 .f32) (x1 : Vec F S192x128 .f32) (x2 : Vec F S128 .f32) (x3 : Vec F S128 .f32) (x4 : Vec F S128 .f32) (x5 : Vec F S128x64 .f32) (x6 : Vec F S64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__upd_mlp_kernel i arg1 harg1 arg2 harg2 arg3 harg3 arg4 harg4 arg5 harg5 arg6 harg6 arg7 harg7 arg8 harg8) K := by
  simp only [cc1__upd_mlp_kernel_eq_skeleton]; unfold cc1__upd_mlp_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try dsimp only
  exact View.read_writes_eq_canon _ _ _ (cover1_7 _)

/-! ## The pipeline's proof data -/

/-- The proof data of pipeline 1 on core `c`: the arrays as the region finds them; after the body at point `t` each
    input's buffer at its block and the output's at `out1_7` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

set_option maxHeartbeats 1000000 in
/-- The body at any point: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

/-! # The run: @main's four segments from the launch to the return

## The buffers' contents at each boundary between segments -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
/-- The same, read at the TensorCore's references. -/
abbrev E1 : (c : Dev nD) → (b : Ref sig .tc) → Buf (Elt F) ((c : Thread nD τ).loc b) := fun c b => W1 m ρ c b
/-- At region 0's exit: its arrays at what the pipeline leaves (an input as entered, the output with every point's
    write-back folded in), every other buffer as entered. -/
def W2 (c : Dev nD) : Valuation τ sig (Elt F) :=
  Pipeline.withArrays spec0 c (W1 m ρ c) fun w => (dat0 (E1 m ρ) c).arrAt w cfg0.N
theorem W2_arr (c : Dev nD) (w : Fin cfg0.W) :
    W2 m ρ c (Proc.devRef .tc (Pipeline.arrRef spec0 w)) = (dat0 (E1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves region 0 as it entered. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (E1 m ρ) c).arrAt_in w hw _).trans (A_eq0 (E1 m ρ) c w))
abbrev X2 : (c : Dev nD) → (b : Ref sig .tc) → Buf (Elt F) ((c : Thread nD τ).loc b) := fun c b => W2 m ρ c b
theorem hF0 (c : Dev nD) (w : Fin cfg0.W) : (dat0 (E1 m ρ) c).arrAt w cfg0.N = X2 m ρ c (Pipeline.arrRef spec0 w) :=
  (W2_arr m ρ c w).symm
theorem hrest0 (c : Dev nD) : ∀ b, b ∉ Finset.univ.image (Pipeline.arrRef spec0) → X2 m ρ c b = E1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev E3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (E3 m ρ) c).arrAt w cfg1.N
theorem W4_arr (c : Dev nD) (w : Fin cfg1.W) :
    W4 m ρ c (Proc.devRef .tc (Pipeline.arrRef spec1 w)) = (dat1 (E3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves region 1 as it entered. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (E3 m ρ) c).arrAt_in w hw _).trans (A_eq1 (E3 m ρ) c w))
abbrev X4 : (c : Dev nD) → (b : Ref sig .tc) → Buf (Elt F) ((c : Thread nD τ).loc b) := fun c b => W4 m ρ c b
theorem hF1 (c : Dev nD) (w : Fin cfg1.W) : (dat1 (E3 m ρ) c).arrAt w cfg1.N = X4 m ρ c (Pipeline.arrRef spec1 w) :=
  (W4_arr m ρ c w).symm
theorem hrest1 (c : Dev nD) : ∀ b, b ∉ Finset.univ.image (Pipeline.arrRef spec1) → X4 m ρ c b = E3 m ρ c b :=
  fun b hb => W4_of_ne m ρ c b fun w e => hb (Finset.mem_image.mpr ⟨w, Finset.mem_univ _, e⟩)

/-! ### The arguments end as launched: no host operation writes one, region 0 reads six of them through input windows
    and region 1 the other six, and the first three are no window's array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_in m ρ c 1 rfl
    _ = W0 m ρ c (Proc.devRef .tc main_arg3) := StableHlo.after_of_writes_sub hostOps0 _ hostOps0_writes (by decide)
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_in m ρ c 2 rfl
    _ = W0 m ρ c (Proc.devRef .tc main_arg4) := StableHlo.after_of_writes_sub hostOps0 _ hostOps0_writes (by decide)
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_in m ρ c 3 rfl
    _ = W0 m ρ c (Proc.devRef .tc main_arg5) := StableHlo.after_of_writes_sub hostOps0 _ hostOps0_writes (by decide)
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_in m ρ c 4 rfl
    _ = W0 m ρ c (Proc.devRef .tc main_arg6) := StableHlo.after_of_writes_sub hostOps0 _ hostOps0_writes (by decide)
    _ = m ((c : Thread nD τ).loc main_arg6) := rfl
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_in m ρ c 5 rfl
    _ = W0 m ρ c (Proc.devRef .tc main_arg7) := StableHlo.after_of_writes_sub hostOps0 _ hostOps0_writes (by decide)
    _ = m ((c : Thread nD τ).loc main_arg7) := rfl
theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_in m ρ c 6 rfl
    _ = W0 m ρ c (Proc.devRef .tc main_arg8) := StableHlo.after_of_writes_sub hostOps0 _ hostOps0_writes (by decide)
    _ = m ((c : Thread nD τ).loc main_arg8) := rfl
theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_in m ρ c 1 rfl
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_in m ρ c 2 rfl
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_in m ρ c 3 rfl
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_in m ρ c 4 rfl
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_in m ρ c 5 rfl
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl
theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_in m ρ c 6 rfl
    _ = W2 m ρ c (Proc.devRef .tc main_arg14) := StableHlo.after_of_writes_sub hostOps1 _ hostOps1_writes (by decide)
    _ = W1 m ρ c (Proc.devRef .tc main_arg14) := W2_of_ne m ρ c main_arg14 (by decide)
    _ = W0 m ρ c (Proc.devRef .tc main_arg14) := StableHlo.after_of_writes_sub hostOps0 _ hostOps0_writes (by decide)
    _ = m ((c : Thread nD τ).loc main_arg14) := rfl

/-! ## The proof data family and the thread state -/

/-- Each pipeline's proof data at its region's entry contents: a literal match on the pipeline's number. -/
def pdat : (p : Fin 2) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state, and the core
    owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

-- a library lemma stated over the pinned configuration unifies with the printed one only when unification may unfold
-- plain definitions in a metavariable's type
set_option backward.isDefEq.respectTransparency.types false in
/-- Region 0 over the thread state: entered from every unscoped buffer at `W1`, left at `W2`. Its arrays are
    split out of the unscoped buffers at entry and put back at the exit contents; the generator register goes into the
    invariant and comes out; nothing is owed; the kernel has no semaphore of its own. -/
def reg0 : Pipeline.RegionSeg (pcfgs (F := F)) adm (pdat m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdat m ρ) launch0.win launch0.arr_whole c
      ((pdat m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdat m ρ) ((pdat m ρ 0 c).share_full fun _ => rfl)
      (E1 m ρ c) (X2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W3`, left at `W4`. Its arrays are
    split out of the unscoped buffers at entry and put back at the exit contents; the generator register goes into the
    invariant and comes out; nothing is owed; the kernel has no semaphore of its own. -/
def reg1 : Pipeline.RegionSeg (pcfgs (F := F)) adm (pdat m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdat m ρ) launch1.win launch1.arr_whole c
      ((pdat m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdat m ρ) ((pdat m ρ 1 c).share_full fun _ => rfl)
      (E3 m ρ c) (X4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order. -/
abbrev segList : List (Pipeline.Seg (pcfgs (F := F)) adm (pdat m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- @main is the run of the segments. -/
theorem main_run (c : Dev nD) : main (F := F) c = Pipeline.Seg.run (segList m ρ) := (main_chain c).trans (by chain_rfl)

set_option backward.isDefEq.respectTransparency.types false in
/-- THE RUN. At the compiled mesh, from any memory with zero counters, every weakly fair execution of @main terminates,
    nothing faulting, and in every final state each unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdat m ρ) () cellOf_inj emb₁ defs₀ 𝒱₀ L lv m ρ main (segList m ρ)
    (fun c Q => by rw [main_run m ρ c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c)⟩)
    (run_all m ρ)

end Cert.KernelIdeal.TwoRegions

end
-- ==== Proof.LibFoldConcat.lean ====
/-
  Folding a straight line of host operations through concatenations.

  The contents a buffer holds after a line of host operations are a fold of the operations' results over the launch
  contents, and the library's result lemmas rewrite that fold one operation at a time. Two kinds of concatenation stop
  the rewriting, and the two facts here let it go on:

  * an operation on a LITERAL family of three references (three arrays laid end to end): the library states such an
    operation's result with the operands read under a binder, `fun k => V ↑(![x, a, b] k)`, where no result lemma
    applies; `nary3_result'` states it with each operand's contents at its own reference (the three-operand analogue of
    the library's lemma for four);
  * a two-piece concatenation `concatenate t a [⟨s1, x1⟩, ⟨s2, x2⟩] hc`: its side condition `hc` is stated over the list
    of pieces, so a rewriting pass cannot enter the pieces; `cat2` is the same value with each piece an argument of its
    own, and `cat2_fold` turns the one into the other (by definition), after which the pieces are rewritten like any
    other argument.

  Use: add `nary3_result'` and `cat2_fold` to the `simp (disch := decide) only [after_cons, after_nil, …_result', …_result_ne']`
  pass that computes `StableHlo.after ops V ↑b`, and close against the composed term by `rfl` (`cat2` unfolds).
-/
import Idealize.ShloMosaic.Lib.StableHlo.Run

noncomputable section

namespace Cert.Lib.FoldConcat

open Idealize.ShloMosaic Idealize.ShloMosaic.TcCoe Idealize.ShloMosaic.StableHlo

variable {τ : Topo} {sig : RefSig} {Val : EltTy → Type}

/-- An operation on a literal family of three references: its result with each operand's contents at its own reference. -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Two pieces laid side by side along an axis, each piece an argument of its own. -/
def cat2 {α : Type} (t : Shape) (a : Fin t.rank) (s1 s2 : Shape) (x1 : s1.Idx → α) (x2 : s2.Idx → α)
    (hc : Shape.Concatenates [s1, s2] t a) : t.Idx → α :=
  concatenate t a [⟨s1, x1⟩, ⟨s2, x2⟩] hc

/-- The library's two-piece concatenation is `cat2` of its pieces. -/
theorem cat2_fold {α : Type} (t : Shape) (a : Fin t.rank) (s1 s2 : Shape) (x1 : s1.Idx → α) (x2 : s2.Idx → α)
    (hc : Shape.Concatenates [s1, s2] t a) : concatenate t a [⟨s1, x1⟩, ⟨s2, x2⟩] hc = cat2 t a s1 s2 x1 x2 hc := rfl

end Cert.Lib.FoldConcat

end
-- ==== Proof.HostKI.lean ====
/-
  What the two stretches of host operations of the kernel program write, named as the reference program's stages.

  Before its first region the kernel program slices the two rows of edge endpoints, wraps negative endpoints, gathers
  the rows of the node features at both endpoints and lays the two gathered arrays and the edge features side by side:
  the same operations, in the same order, as the reference's first stages, so the array the first region is entered
  with is the reference's concatenated array of the launch contents of the first three arguments. Between the regions
  it scatter-adds an array of messages over the destination nodes into zeros and lays the node features and that sum
  side by side: as a function of the node features, the destination row and the messages this is `aggIn`, which is
  also what the reference's stages compute from its own messages.

  A concatenate's side condition is stated over its list of pieces, so the pieces are treated one at a time: equal
  pieces give equal arrays (`concat3_congr`), and each piece is a straight line of operations that is folded through.
  No host operation of either stretch writes an argument, and a region changes its output array only.
-/
import proofs.«138215_j42571715837967_1_alg».proof.Proof.FrameKI
import proofs.«138215_j42571715837967_1_alg».proof.Proof.LibFoldConcat
import proofs.«138215_j42571715837967_1_alg».proof.Proof.Gen.ReferenceIdeal.Read
import Idealize.ShloMosaic.Lib.StableHlo.Run
import Idealize.ShloMosaic.PureOps.Ideal

noncomputable section

namespace Cert.KernelIdeal.TwoRegions

open Cert.KernelIdeal Cert.KernelIdeal.Gen
open Idealize.ShloMosaic Idealize.ShloMosaic.TcCoe Idealize.SL.Sem Idealize.ShloMosaic.StableHlo

/-- The contents of a buffer of a shape and an element type, at the exact values. -/
abbrev Arr (S : Shape) (e : EltTy) : Type := (⟨S, e⟩ : BufTy).Contents (Elt Ideal)

/-- Three pieces laid side by side along an axis: equal pieces give equal arrays. -/
theorem concat3_congr {α : Type} (t : Shape) (a : Fin t.rank) (s1 s2 s3 : Shape) {x1 y1 : s1.Idx → α} {x2 y2 : s2.Idx → α}
    {x3 y3 : s3.Idx → α} (hc hc' : Shape.Concatenates [s1, s2, s3] t a) (h1 : x1 = y1) (h2 : x2 = y2) (h3 : x3 = y3) :
    concatenate t a [⟨s1, x1⟩, ⟨s2, x2⟩, ⟨s3, x3⟩] hc = concatenate t a [⟨s1, y1⟩, ⟨s2, y2⟩, ⟨s3, y3⟩] hc' := by
  subst h1 h2 h3; rfl

/-- The node features and the sum of the messages over their destination nodes, laid side by side: zeros, into which
    row `e` of `M` is added at the row `idx e` names. -/
def aggIn (x0 : Arr S100000x64 .f32) (idx : Arr S800000 .i32) (M : Arr S800000x128 .f32) :
    Arr S100000x192 .f32 :=
  concatenate S100000x192 1 [⟨S100000x64, x0⟩, ⟨S100000x128,
    Host.scatterAdd scatter_S100000x128_S800000x1_S800000x128_1_0_0_1
      (broadcastInDim S100000x128 ![] bcast_S_S100000x128 (constant (F := Ideal) S_ .f32 0x00000000#32))
      (broadcastInDim S800000x1 ![0] bcast_S800000_S800000x1_0 idx) M⟩]
    concatenates_S100000x64_S100000x128_S100000x192_d1

/-- The reference's array before its update perceptron is `aggIn` of the node features, its destination row and its
    messages. -/
theorem ref_v55 (x0 : Arr S100000x64 .f32) (x1 : Arr S2x800000 .i32) (x2 : Arr S800000x32 .f32)
    (x3 : Arr S160x128 .f32) (x4 x5 x6 : Arr S128 .f32) (x7 : Arr S128x128 .f32) (x8 : Arr S128 .f32) :
    Cert.ReferenceIdeal.Read.val_main_v55 (F := Ideal) x0 x1 x2 x3 x4 x5 x6 x7 x8
      = aggIn x0 (Cert.ReferenceIdeal.Read.val_main_v3 (F := Ideal) x1) (Cert.ReferenceIdeal.Read.val_main_v51 (F := Ideal) x0 x1 x2 x3 x4 x5 x6 x7 x8) := rfl

/-- The fold of a line of host operations, one pass: each operation's result at its own reference, a read of another
    reference passing through it. -/
local macro "host_results" : tactic =>
  `(tactic| simp (disch := decide) only [after_cons, after_nil,
      nullary_result', unary_result', binary_result', ternary_result', quaternary_result', reshape_result', nary4_result',
      Cert.Lib.FoldConcat.nary3_result', Cert.Lib.FoldConcat.cat2_fold,
      unaryIndexed_result', binaryIndexed_result',
      nullary_result_ne', unary_result_ne', binary_result_ne', ternary_result_ne', quaternary_result_ne', reshape_result_ne',
      nary_result_ne', unaryIndexed_result_ne', binaryIndexed_result_ne'])

variable (m : (ℓ : Loc nD τ sig) → Buf (Elt Ideal) ℓ) (ρ : Dev nD → PrngReg) (c : Dev nD)

/-! ## The first stretch -/

/-- A buffer the first stretch does not write is entered by region 0 as launched. -/
theorem E1_of (r : Ref sig .tc) (h : r ∉ hostOps0_W) : E1 m ρ c r = m ((c : Thread nD τ).loc r) :=
  (StableHlo.after_of_writes_sub hostOps0 _ hostOps0_writes h).trans rfl

/-- The destination row of the edge endpoints after the first stretch is the reference's. -/
theorem W1_v3 : (W1 m ρ c (Proc.devRef .tc main_v3) : Arr S800000 .i32) = Cert.ReferenceIdeal.Read.val_main_v3 (F := Ideal) (m ((c : Thread nD τ).loc main_arg1)) := by
  show StableHlo.after (hostOps0 (F := Ideal)) (fun b => m ((c : Dev nD), b)) (Proc.devRef .tc main_v3) = _
  simp only [hostOps0]
  host_results
  rfl

/-- Region 0 is entered with the reference's concatenated array of the launch contents. -/
theorem E1_v18 : (E1 m ρ c main_v18 : Arr S800000x160 .f32)
    = Cert.ReferenceIdeal.Read.val_main_v18 (F := Ideal) (m ((c : Thread nD τ).loc main_arg0)) (m ((c : Thread nD τ).loc main_arg1)) (m ((c : Thread nD τ).loc main_arg2)) := by
  show StableHlo.after (hostOps0 (F := Ideal)) (fun b => m ((c : Dev nD), b)) (Proc.devRef .tc main_v18) = _
  unfold Cert.ReferenceIdeal.Read.val_main_v18
  simp (disch := decide) only [hostOps0, after_cons, after_nil, Cert.Lib.FoldConcat.nary3_result']
  refine concat3_congr _ _ _ _ _ _ _ ?_ ?_ ?_
  · host_results; rfl
  · host_results; rfl
  · host_results; rfl

/-! ## Region 0's exit and the second stretch -/

/-- A buffer that is no array of region 0 and that the first stretch does not write leaves region 0 as launched. -/
theorem W2_of (r : Ref sig .tc) (h2 : ∀ w, Pipeline.arrRef spec0 w ≠ r) (h0 : r ∉ hostOps0_W) :
    W2 m ρ c (Proc.devRef .tc r) = m ((c : Thread nD τ).loc r) :=
  (W2_of_ne m ρ c r h2).trans (E1_of m ρ c r h0)

/-- A buffer neither stretch writes and that is no array of region 0 is entered by region 1 as launched. -/
theorem E3_of (r : Ref sig .tc) (h1 : r ∉ hostOps1_W) (h2 : ∀ w, Pipeline.arrRef spec0 w ≠ r) (h0 : r ∉ hostOps0_W) :
    E3 m ρ c r = m ((c : Thread nD τ).loc r) :=
  (StableHlo.after_of_writes_sub hostOps1 _ hostOps1_writes h1).trans (W2_of m ρ c r h2 h0)

/-- Region 1 is entered with `aggIn` of the node features, the destination row and region 0's output array, each as
    region 0 leaves it. -/
theorem E3_v23 : (E3 m ρ c main_v23 : Arr S100000x192 .f32)
    = aggIn (W2 m ρ c (Proc.devRef .tc main_arg0)) (W2 m ρ c (Proc.devRef .tc main_v3)) (W2 m ρ c (Proc.devRef .tc main_v19)) := by
  show StableHlo.after (hostOps1 (F := Ideal)) (W2 m ρ c) (Proc.devRef .tc main_v23) = _
  generalize W2 m ρ c = V
  simp only [hostOps1]
  host_results
  rfl

end Cert.KernelIdeal.TwoRegions

end
-- ==== Proof.Spec.lean ====
/-
  The arithmetic of one multilayer perceptron of the message-passing layer, on ONE row, over the extended reals.

  A row `r` of `K` features is sent to `hidden`: the 128 numbers `∑ₖ r k · W₁ k j + b₁ j`. These are normalised
  over the 128 channels — the mean and the variance are quotients by the channel count, the variance is stabilised
  by a small constant before the inverse square root, then scaled by `g` and shifted by `be` — and passed through
  `x ↦ x · logistic x`. The result is sent to `∑ⱼ act j · W₂ j i + b₂ i`.

  Every sum is a finite sum on the extended reals: no order of summation and no rounding is left in it, so a program
  that computes these numbers block of rows by block of rows and one that computes them on the whole array at once
  are described by the same function, row by row. The two float constants are kept as the words both programs print.
-/
import Idealize.ShloMosaic.PureOps.Ideal
import Idealize.ShloMosaic.Lib.ValueIdx

noncomputable section

namespace Cert.Spec

open Idealize.ShloMosaic
open scoped BigOperators

/-- The channel count 128 as the float word both programs divide by. -/
abbrev nHid : EReal := Ideal.ofBits .f32 0x43000000#32
/-- The variance's stabiliser as the float word both programs add. -/
abbrev eps : EReal := Ideal.ofBits .f32 0x3727C5AC#32

/-- The mean of 128 channels: their sum divided by the channel count. -/
def mean (h : Fin 128 → EReal) : EReal := Ideal.div (∑ j : Fin 128, h j) nHid

/-- The first affine map on a row: `∑ₖ r k · W₁ k j + b₁ j`. -/
def hidden {K : ℕ} (r : Fin K → EReal) (W1 : Fin K → Fin 128 → EReal) (b1 : Fin 128 → EReal) (j : Fin 128) : EReal :=
  (∑ k : Fin K, r k * W1 k j) + b1 j

/-- Channel `j` after normalisation over the 128 channels, scaled by `g` and shifted by `be`. -/
def normed (h g be : Fin 128 → EReal) (j : Fin 128) : EReal :=
  (h j - mean h) * Ideal.rsqrt (mean (fun k => (h k - mean h) * (h k - mean h)) + eps) * g j + be j

/-- Channel `j` after the activation `x ↦ x · logistic x`. -/
def act (h g be : Fin 128 → EReal) (j : Fin 128) : EReal :=
  normed h g be j * Ideal.logistic (normed h g be j)

/-- The whole perceptron on a row: output channel `i` is `∑ⱼ act j · W₂ j i + b₂ i`. -/
def mlpRow {K N : ℕ} (r : Fin K → EReal) (W1 : Fin K → Fin 128 → EReal) (b1 g be : Fin 128 → EReal)
    (W2 : Fin 128 → Fin N → EReal) (b2 : Fin N → EReal) (i : Fin N) : EReal :=
  (∑ j : Fin 128, act (hidden r W1 b1) g be j * W2 j i) + b2 i

end Cert.Spec

end
-- ==== Proof.LibKeepdims.lean ====
/-
  Two layout operations read at an index given by coordinates, for the column that a row-wise reduction with kept
  dimensions leaves: a vector `[a]` re-laid as the column `[a, 1]`, and a column `[a, 1]` repeated along the second axis
  to `[a, b]`. (The row forms `[a] → [1, a]` and `[1, b] → [a, b]` are in the library.) Both read the operand at the
  row coordinate alone.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.LibBlockLayout.lean ====
/-
  Layout operations and row reductions read at an index given by coordinates, in the forms a kernel that works on one
  block of a larger array meets:
    [1, 1, a, b, c] cast to [a, b, c]        reads (i, j, k) at (0, 0, i, j, k);
    [a, b, c]       cast to [1, 1, a, b, c]  reads (u, v, i, j, k) at (i, j, k);
    [a, b]          cast to [1, 1, a, b]     reads (u, v, i, j) at (i, j);
  (each pair of indices has the same row-major position, the unit coordinates contributing nothing), and, at the exact
  values, the maximum of [a, b, c] over its trailing axis at (p, q) as the fold of max over k of the source at (p, q, k);
  the sum and the maximum of [a, b] over its trailing axis at p as the sum, or the fold of max, over k of the source at
  (p, k).
-/
import Idealize.ShloMosaic.Lib.ValueLayout
import Idealize.ShloMosaic.PureOps.Reduce
import Idealize.ShloMosaic.PureOps.Ideal.Laws

namespace Cert.BlockLayout

open Idealize.ShloMosaic Idealize.ShloMosaic.ValueIdx

variable {α : Type}

/-- A `[1, 1, a, b, c]` array cast to `[a, b, c]` reads, at `(i, j, k)`, the operand at `(0, 0, i, j, k)`. -/
theorem shapeCast_11abc_abc_apply {a b c : ℕ} (x : (⟨5, ![1, 1, a, b, c]⟩ : Shape).Idx → α)
    (h : (⟨5, ![1, 1, a, b, c]⟩ : Shape).ShapeCasts ⟨3, ![a, b, c]⟩) (i : Fin a) (j : Fin b) (k : Fin c) :
    shapeCast ⟨3, ![a, b, c]⟩ x h (ix3 i j k) = x (ix5 (0 : Fin 1) (0 : Fin 1) i j k) :=
  shapeCast_apply x h _ _ (by
    rw [Shape.rowMajor_val_three, Shape.rowMajor_val_five]
    show (((0 * 1 + 0) * a + i.val) * b + j.val) * c + k.val = (i.val * b + j.val) * c + k.val
    simp)

/-- An `[a, b, c]` array cast to `[1, 1, a, b, c]` reads, at `(u, v, i, j, k)`, the operand at `(i, j, k)`, whatever
    the two unit coordinates. -/
theorem shapeCast_abc_11abc_apply {a b c : ℕ} (x : (⟨3, ![a, b, c]⟩ : Shape).Idx → α)
    (h : (⟨3, ![a, b, c]⟩ : Shape).ShapeCasts ⟨5, ![1, 1, a, b, c]⟩) (u v : Fin 1) (i : Fin a) (j : Fin b) (k : Fin c) :
    shapeCast ⟨5, ![1, 1, a, b, c]⟩ x h (ix5 u v i j k) = x (ix3 i j k) :=
  shapeCast_apply x h _ _ (by
    have hu : u.val = 0 := by omega
    have hv : v.val = 0 := by omega
    rw [Shape.rowMajor_val_three, Shape.rowMajor_val_five]
    show (i.val * b + j.val) * c + k.val = (((u.val * 1 + v.val) * a + i.val) * b + j.val) * c + k.val
    rw [hu, hv]; simp)

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    rw [hu, hv]; simp)

/-- Reducing `[a, b, c]` over its trailing axis: the source index over `(p, q)` with `k` inserted is `(p, q, k)`. -/
theorem lift_trailing3 {a b c : ℕ} (h : (⟨3, ![a, b, c]⟩ : Shape).Reduces [(2 : Fin 3)] ⟨2, ![a, b]⟩)
    (p : Fin a) (q : Fin b) (k : Fin c) : h.lift (ix2 p q) k = ix3 p q k := by
  funext ax
  apply Fin.ext
  match ax with
  | ⟨0, _⟩ => rfl
  | ⟨1, _⟩ => rfl
  | ⟨2, _⟩ => rfl

/-- At the exact values, the maximum of `[a, b, c]` over its trailing axis reads, at `(p, q)`, the fold of `max` from
    the accumulator's value over `k` of the source at `(p, q, k)`. -/
theorem multiReduction_max_trailing3 {φ : FTy} {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (Ideal.ofBits φ acc) (fun k => src (ix3 p q k)) := by
  refine (Ideal.multiReduction_maximumf_single src acc h hφ hacc (ix2 p q)).trans ?_
  exact congrArg (Finset.fold max _ · Finset.univ) (funext fun k => congrArg src (lift_trailing3 h p q k))

/-- Reducing `[a, b]` over its trailing axis: the source index over `p` with `k` inserted is `(p, k)`. -/
theorem lift_trailing2 {a b : ℕ} (h : (⟨2, ![a, b]⟩ : Shape).Reduces [(1 : Fin 2)] ⟨1, ![a]⟩)
    (p : Fin a) (k : Fin b) : h.lift (ix1 p) k = ix2 p k := by
  funext ax
  apply Fin.ext
  match ax with
  | ⟨0, _⟩ => rfl
  | ⟨1, _⟩ => rfl

/-- At the exact values, a float sum of `[a, b]` over its trailing axis reads, at `p`, the sum over `k` of the source at
    `(p, k)`. -/
theorem multiReduction_add_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (p : Fin a) :
    multiReduction .add [(1 : Fin 2)] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_trailing2 h p k)

/-- At the exact values, the maximum of `[a, b]` over its trailing axis reads, at `p`, the fold of `max` from the
    accumulator's value over `k` of the source at `(p, k)`. -/
theorem multiReduction_max_trailing2 {φ : FTy} {a b : ℕ} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (p : Fin a) :
    multiReduction .maximumf [(1 : Fin 2)] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  exact congrArg (Finset.fold max _ · Finset.univ) (funext fun k => congrArg src (lift_trailing2 h p k))

end Cert.BlockLayout
-- ==== Proof.PayCommon.lean ====
/-
  One perceptron of the layer on a block of a rows, read at an entry.

  A block h of a rows by 128 channels is normalised row by row: the mean of a row is its sum over the 128 channels
  divided by the channel count, kept as a column; the centred block is h minus that column repeated along the
  channels; the variance is the mean of the centred block's square, stabilised by a small constant before the
  inverse square root; the result is scaled and shifted channel by channel and passed through x ↦ x · logistic x.
  The block h itself is a product of the block of rows by a weight matrix, accumulated from zero, plus a row of
  biases repeated over the rows; the activated block is multiplied by a second weight matrix in the same way.

  Each of these blocks is named here for any row count a, and read at the entry (p, j): it is the row function of
  the specification applied to row p of the operand. Every operation reads row p alone, a sum over the channels
  is a finite sum on the extended reals, and the roundings to a narrower format are the identity at the exact
  values: so nothing but the row's arithmetic is left.
-/
import Idealize.ShloMosaic.Lib.ValueIdx
import Idealize.ShloMosaic.Lib.ValueLayout
import proofs.«138215_j42571715837967_1_alg».proof.Proof.Spec
import proofs.«138215_j42571715837967_1_alg».proof.Proof.LibKeepdims
import proofs.«138215_j42571715837967_1_alg».proof.Proof.LibContractPlain
import proofs.«138215_j42571715837967_1_alg».proof.Proof.LibBlockLayout

noncomputable section

namespace Cert.KernelIdeal.PayValue

open Idealize.ShloMosaic Idealize.ShloMosaic.ValueIdx
open scoped BigOperators

/-- A block of a rows by 128 channels. -/
abbrev Blk (a : ℕ) : Shape := ⟨2, ![a, 128]⟩
/-- A column: one number per row, with the reduced axis kept. -/
abbrev Col (a : ℕ) : Shape := ⟨2, ![a, 1]⟩
/-- One number per row. -/
abbrev Rws (a : ℕ) : Shape := ⟨1, ![a]⟩
/-- One number per channel. -/
abbrev Chn : Shape := ⟨1, ![128]⟩
/-- One number per channel, as a single row. -/
abbrev Row1 : Shape := ⟨2, ![1, 128]⟩

/-- The relations between these shapes that the operations on a block of a rows ask for. -/
structure BlkFacts (a : ℕ) : Prop where
  red : (Blk a).Reduces [(1 : Fin 2)] (Rws a)
  col : (Rws a).ShapeCasts (Col a)
  bcol : (Col a).Broadcasts (Blk a)
  row : Chn.ShapeCasts Row1
  brow : Row1.Broadcasts (Blk a)
  lt : FTy.bits .bf16 < FTy.bits .f32

variable {a : ℕ}

/-! ## The normalisation and the activation -/

/-- The column of row means: the sum over the channels, kept as a column, divided by the channel count. -/
def meanCol (f : BlkFacts a) (h : FVec Ideal (Blk a) .f32) : FVec Ideal (Col a) .f32 :=
  divf (shapeCast (Col a) (multiReduction .add [(1 : Fin 2)] (Rws a) h 0x00000000#32 f.red (.inl rfl) rfl) f.col)
    (broadcast (Col a) (Scalar.ofBits (F := Ideal) .f32 0x43000000#32))

theorem meanCol_apply (f : BlkFacts a) (h : FVec Ideal (Blk a) .f32) (p : Fin a) (u : Fin 1) :
    meanCol f h (ix2 p u) = Cert.Spec.mean (fun j : Fin 128 => h (ix2 p j)) := by
  show Ideal.div (shapeCast (Col a) (multiReduction .add [(1 : Fin 2)] (Rws a) h 0x00000000#32 f.red (.inl rfl) rfl)
      f.col (ix2 p u)) Cert.Spec.nHid = Ideal.div (∑ j : Fin 128, h (ix2 p j)) Cert.Spec.nHid
  exact congrArg (fun s => Ideal.div s Cert.Spec.nHid)
    ((Cert.Keepdims.shapeCast_a_a1_apply _ f.col p u).trans
      (Cert.BlockLayout.multiReduction_add_trailing2 h 0x00000000#32 f.red (.inl rfl) rfl p))

/-- The block minus its column of row means. -/
def centred (f : BlkFacts a) (h : FVec Ideal (Blk a) .f32) : FVec Ideal (Blk a) .f32 :=
  subf h (broadcastTo (Blk a) (meanCol f h) f.bcol)

theorem centred_apply (f : BlkFacts a) (h : FVec Ideal (Blk a) .f32) (p : Fin a) (j : Fin 128) :
    centred f h (ix2 p j) = h (ix2 p j) - Cert.Spec.mean (fun k : Fin 128 => h (ix2 p k)) := by
  show h (ix2 p j) - broadcastTo (Blk a) (meanCol f h) f.bcol (ix2 p j) = _
  rw [Cert.Keepdims.broadcastTo_a1_ab_apply, meanCol_apply]

/-- The column of inverse standard deviations: the inverse square root of the stabilised mean square of the
    centred block. -/
def rstdCol (f : BlkFacts a) (h : FVec Ideal (Blk a) .f32) : FVec Ideal (Col a) .f32 :=
  rsqrt (addf (meanCol f (mulf (centred f h) (centred f h)))
    (broadcast (Col a) (Scalar.ofBits (F := Ideal) .f32 0x3727C5AC#32)))

theorem rstdCol_apply (f : BlkFacts a) (h : FVec Ideal (Blk a) .f32) (p : Fin a) (u : Fin 1) :
    rstdCol f h (ix2 p u)
      = Ideal.rsqrt (Cert.Spec.mean (fun k : Fin 128 =>
            (h (ix2 p k) - Cert.Spec.mean (fun k : Fin 128 => h (ix2 p k)))
              * (h (ix2 p k) - Cert.Spec.mean (fun k : Fin 128 => h (ix2 p k)))) + Cert.Spec.eps) := by
  show Ideal.rsqrt (meanCol f (mulf (centred f h) (centred f h)) (ix2 p u) + Cert.Spec.eps) = _
  rw [meanCol_apply]
  have e : (fun j : Fin 128 => mulf (centred f h) (centred f h) (ix2 p j))
      = fun k : Fin 128 => (h (ix2 p k) - Cert.Spec.mean (fun k : Fin 128 => h (ix2 p k)))
          * (h (ix2 p k) - Cert.Spec.mean (fun k : Fin 128 => h (ix2 p k))) :=
    funext fun j => by
      show centred f h (ix2 p j) * centred f h (ix2 p j) = _
      rw [centred_apply]
  rw [e]

/-- The normalised block, scaled by g and shifted by be channel by channel. -/
def normedBlk (f : BlkFacts a) (h : FVec Ideal (Blk a) .f32) (g be : FVec Ideal Chn .f32) : FVec Ideal (Blk a) .f32 :=
  addf (mulf (mulf (centred f h) (broadcastTo (Blk a) (rstdCol f h) f.bcol))
      (broadcastTo (Blk a) (shapeCast Row1 g f.row) f.brow))
    (broadcastTo (Blk a) (shapeCast Row1 be f.row) f.brow)

theorem normedBlk_apply (f : BlkFacts a) (h : FVec Ideal (Blk a) .f32) (g be : FVec Ideal Chn .f32) (p : Fin a) (j : Fin 128) :
    normedBlk f h g be (ix2 p j)
      = Cert.Spec.normed (fun k : Fin 128 => h (ix2 p k)) (fun k : Fin 128 => g (ix1 k)) (fun k : Fin 128 => be (ix1 k)) j := by
  show centred f h (ix2 p j) * broadcastTo (Blk a) (rstdCol f h) f.bcol (ix2 p j)
        * broadcastTo (Blk a) (shapeCast Row1 g f.row) f.brow (ix2 p j)
      + broadcastTo (Blk a) (shapeCast Row1 be f.row) f.brow (ix2 p j) = _
  rw [Cert.Keepdims.broadcastTo_a1_ab_apply, broadcastTo_1b_ab_apply, broadcastTo_1b_ab_apply,
    shapeCast_a_1a_apply, shapeCast_a_1a_apply, centred_apply, rstdCol_apply]
  rfl

/-- The activated block: x ↦ x · logistic x on the normalised block. -/
def actBlk (f : BlkFacts a) (h : FVec Ideal (Blk a) .f32) (g be : FVec Ideal Chn .f32) : FVec Ideal (Blk a) .f32 :=
  mulf (normedBlk f h g be) (logistic (normedBlk f h g be))

theorem actBlk_apply (f : BlkFacts a) (h : FVec Ideal (Blk a) .f32) (g be : FVec Ideal Chn .f32) (p : Fin a) (j : Fin 128) :
    actBlk f h g be (ix2 p j)
      = Cert.Spec.act (fun k : Fin 128 => h (ix2 p k)) (fun k : Fin 128 => g (ix1 k)) (fun k : Fin 128 => be (ix1 k)) j := by
  show normedBlk f h g be (ix2 p j) * Ideal.logistic (normedBlk f h g be (ix2 p j)) = _
  rw [normedBlk_apply]
  rfl

/-! ## The two affine maps -/

/-- The hidden block: the rows times the first weight matrix, accumulated from zero, plus the biases. -/
def hidBlk {K : ℕ} (f : BlkFacts a) (D : DotDims ⟨2, ![a, K]⟩ ⟨2, ![K, 128]⟩ ⟨2, ![a, 128]⟩)
    (x : FVec Ideal ⟨2, ![a, K]⟩ .f32) (w1 : FVec Ideal ⟨2, ![K, 128]⟩ .f32) (b1 : FVec Ideal Chn .f32) :
    FVec Ideal (Blk a) .f32 :=
  addf (matmul D none (truncf .bf16 x f.lt) (truncf .bf16 w1 f.lt) (constant (Blk a) .f32 0x00000000#32))
    (broadcastTo (Blk a) (shapeCast Row1 b1 f.row) f.brow)

theorem hidBlk_apply {K : ℕ} (f : BlkFacts a) (D : DotDims ⟨2, ![a, K]⟩ ⟨2, ![K, 128]⟩ ⟨2, ![a, 128]⟩)
    (hD : D = DotDims.plain a K 128)
    (x : FVec Ideal ⟨2, ![a, K]⟩ .f32) (w1 : FVec Ideal ⟨2, ![K, 128]⟩ .f32) (b1 : FVec Ideal Chn .f32)
    (p : Fin a) (j : Fin 128) :
    hidBlk f D x w1 b1 (ix2 p j)
      = Cert.Spec.hidden (fun k : Fin K => x (ix2 p k)) (fun (k : Fin K) (j : Fin 128) => w1 (ix2 k j))
          (fun j : Fin 128 => b1 (ix1 j)) j := by
  show matmul D none (truncf .bf16 x f.lt) (truncf .bf16 w1 f.lt) (constant (F := Ideal) ⟨2, ![a, 128]⟩ .f32 0x00000000#32) (ix2 p j)
      + broadcastTo (Blk a) (shapeCast Row1 b1 f.row) f.brow (ix2 p j) = _
  rw [Cert.Lib.ContractPlain.matmulZero_apply D hD, broadcastTo_1b_ab_apply, shapeCast_a_1a_apply]
  rfl

/-- The output block before its biases: the activated block times the second weight matrix, accumulated from zero. -/
def outBlk {N : ℕ} (f : BlkFacts a) (D : DotDims ⟨2, ![a, 128]⟩ ⟨2, ![128, N]⟩ ⟨2, ![a, N]⟩)
    (A : FVec Ideal (Blk a) .f32) (w2 : FVec Ideal ⟨2, ![128, N]⟩ .f32) : FVec Ideal ⟨2, ![a, N]⟩ .f32 :=
  matmul D none (truncf .bf16 A f.lt) (truncf .bf16 w2 f.lt) (constant ⟨2, ![a, N]⟩ .f32 0x00000000#32)

theorem outBlk_apply {N : ℕ} (f : BlkFacts a) (D : DotDims ⟨2, ![a, 128]⟩ ⟨2, ![128, N]⟩ ⟨2, ![a, N]⟩)
    (hD : D = DotDims.plain a 128 N) (A : FVec Ideal (Blk a) .f32) (w2 : FVec Ideal ⟨2, ![128, N]⟩ .f32)
    (p : Fin a) (q : Fin N) :
    outBlk f D A w2 (ix2 p q) = ∑ j : Fin 128, A (ix2 p j) * w2 (ix2 j q) :=
  Cert.Lib.ContractPlain.matmulZero_apply D hD none (truncf .bf16 A f.lt) (truncf .bf16 w2 f.lt) p q

/-- The perceptron on a block, before the output biases. -/
def mlpBlk {K N : ℕ} (f : BlkFacts a) (D1 : DotDims ⟨2, ![a, K]⟩ ⟨2, ![K, 128]⟩ ⟨2, ![a, 128]⟩)
    (D2 : DotDims ⟨2, ![a, 128]⟩ ⟨2, ![128, N]⟩ ⟨2, ![a, N]⟩)
    (x : FVec Ideal ⟨2, ![a, K]⟩ .f32) (w1 : FVec Ideal ⟨2, ![K, 128]⟩ .f32) (b1 g be : FVec Ideal Chn .f32)
    (w2 : FVec Ideal ⟨2, ![128, N]⟩ .f32) : FVec Ideal ⟨2, ![a, N]⟩ .f32 :=
  outBlk f D2 (actBlk f (hidBlk f D1 x w1 b1) g be) w2

/-- Read at (p, q), it is the specification's sum over the hidden channels on row p. -/
theorem mlpBlk_apply {K N : ℕ} (f : BlkFacts a) (D1 : DotDims ⟨2, ![a, K]⟩ ⟨2, ![K, 128]⟩ ⟨2, ![a, 128]⟩)
    (hD1 : D1 = DotDims.plain a K 128)
    (D2 : DotDims ⟨2, ![a, 128]⟩ ⟨2, ![128, N]⟩ ⟨2, ![a, N]⟩) (hD2 : D2 = DotDims.plain a 128 N)
    (x : FVec Ideal ⟨2, ![a, K]⟩ .f32) (w1 : FVec Ideal ⟨2, ![K, 128]⟩ .f32) (b1 g be : FVec Ideal Chn .f32)
    (w2 : FVec Ideal ⟨2, ![128, N]⟩ .f32) (p : Fin a) (q : Fin N) :
    mlpBlk f D1 D2 x w1 b1 g be w2 (ix2 p q)
      = ∑ j : Fin 128, Cert.Spec.act (Cert.Spec.hidden (fun k : Fin K => x (ix2 p k))
            (fun (k : Fin K) (j : Fin 128) => w1 (ix2 k j)) (fun j : Fin 128 => b1 (ix1 j)))
          (fun j : Fin 128 => g (ix1 j)) (fun j : Fin 128 => be (ix1 j)) j * w2 (ix2 j q) := by
  unfold mlpBlk
  rw [outBlk_apply f D2 hD2]
  refine Finset.sum_congr rfl fun j _ => ?_
  rw [actBlk_apply]
  have e : (fun k : Fin 128 => hidBlk f D1 x w1 b1 (ix2 p k))
      = Cert.Spec.hidden (fun k : Fin K => x (ix2 p k)) (fun (k : Fin K) (j : Fin 128) => w1 (ix2 k j))
          (fun j : Fin 128 => b1 (ix1 j)) :=
    funext fun k => hidBlk_apply f D1 hD1 x w1 b1 p k
  rw [e]

end Cert.KernelIdeal.PayValue

end
-- ==== Proof.MsgPay.lean ====
/-
  The message perceptron on one block of 6400 rows, read at an entry.

  The block computation takes the 6400 rows of 160 features, multiplies them by the first weight matrix from a zero
  accumulator, adds the biases, normalises each row over its 128 channels, scales and shifts, applies
  x ↦ x · logistic x, multiplies by the second weight matrix from a zero accumulator and adds the output biases.
  It is the perceptron on a block of 6400 rows of the common module, at the shape relations and the two dimension
  records of this block; the cast of the rows to their own shape is the identity. Read at (p, q), it is therefore the
  row function of the specification on row p, at output channel q.
-/
import proofs.«138215_j42571715837967_1_alg».proof.Proof.Gen.KernelIdeal.Skeleton
import proofs.«138215_j42571715837967_1_alg».proof.Proof.Spec
import proofs.«138215_j42571715837967_1_alg».proof.Proof.PayCommon

noncomputable section

namespace Cert.KernelIdeal.PayValue

open Cert.KernelIdeal Cert.KernelIdeal.Gen Idealize.ShloMosaic Idealize.ShloMosaic.ValueIdx
open scoped BigOperators

/-- The shape relations of a block of 6400 rows. -/
theorem msgFacts : BlkFacts 6400 :=
  ⟨Gen.reduces_S6400x128_S6400, Gen.shapeCasts_S6400_S6400x1, Gen.broadcasts_S6400x1_S6400x128,
    Gen.shapeCasts_S128_S1x128, Gen.broadcasts_S1x128_S6400x128, Gen.bitsLt_bf16_f32⟩

/-- The block computation before the output biases is the common perceptron on a block of 6400 rows: the two are the
    same chain of operations. -/
theorem k0_pay2_eq (x : Vec Ideal S6400x160 .f32) (w1 : Vec Ideal S160x128 .f32) (b1 g be : Vec Ideal S128 .f32)
    (w2 : Vec Ideal S128x128 .f32) :
    k0_pay2 (F := Ideal) x w1 b1 g be w2
      = mlpBlk msgFacts dot_S6400x160_S160x128_S6400x128_1_0_0_1_n_n dot_S6400x128_S128x128_S6400x128_1_0_0_1_n_n
          (shapeCast S6400x160 x Gen.shapeCasts_S6400x160_S6400x160) w1 b1 g be w2 := rfl

/-- Adding the output biases, a row repeated over the 6400 rows, adds bias q at (p, q). -/
theorem k0_pay1_apply (v : FVec Ideal S6400x128 .f32) (b2 : Vec Ideal S128 .f32) (p : Fin 6400) (q : Fin 128) :
    k0_pay1 (F := Ideal) v b2 (ix2 p q) = v (ix2 p q) + b2 (ix1 q) := by
  show v (ix2 p q) + broadcastTo S6400x128 (shapeCast S1x128 b2 Gen.shapeCasts_S128_S1x128)
      Gen.broadcasts_S1x128_S6400x128 (ix2 p q) = _
  rw [broadcastTo_1b_ab_apply, shapeCast_a_1a_apply]

/-- The message perceptron's block computation at (p, q) is the specification's row function on row p. -/
theorem msg_pay_apply (x : Vec Ideal S6400x160 .f32) (w1 : Vec Ideal S160x128 .f32) (b1 g be : Vec Ideal S128 .f32)
    (w2 : Vec Ideal S128x128 .f32) (b2 : Vec Ideal S128 .f32) (p : Fin 6400) (q : Fin 128) :
    k0_pay1 (F := Ideal) (k0_pay2 (F := Ideal) x w1 b1 g be w2) b2 (ix2 p q)
      = Cert.Spec.mlpRow (fun k : Fin 160 => x (ix2 p k)) (fun (k : Fin 160) (j : Fin 128) => w1 (ix2 k j))
          (fun j : Fin 128 => b1 (ix1 j)) (fun j : Fin 128 => g (ix1 j)) (fun j : Fin 128 => be (ix1 j))
          (fun (j : Fin 128) (i : Fin 128) => w2 (ix2 j i)) (fun i : Fin 128 => b2 (ix1 i)) q := by
  rw [k0_pay1_apply, k0_pay2_eq, mlpBlk_apply msgFacts dot_S6400x160_S160x128_S6400x128_1_0_0_1_n_n rfl
    dot_S6400x128_S128x128_S6400x128_1_0_0_1_n_n rfl, shapeCast_self]
  rfl

end Cert.KernelIdeal.PayValue

end
-- ==== Proof.BlocksKI0.lean ====
/-
  From the blocks of the message perceptron's region to its whole output array.

  The region walks a grid of 125 points. At point t the kernel's body reads rows 6400·t … 6400·t + 6399 of the array of
  edge inputs (800000 rows of 160 features) and the six parameter arrays whole, and leaves in the output window's buffer
  the perceptron of each of those rows; the buffer is written back to rows 6400·t … 6400·t + 6399 of the output array
  (800000 rows of 128 channels). The perceptron acts row by row, so the block that point t writes back is the block of
  ONE function of the whole arrays: output row r is the perceptron of input row r. Every row r lies in the block of the
  point r / 6400, and every point writes back; so after the last point the output array is that function.

  In detail: the index maps of the windows are decided once over the grid (the two row-blocked windows have block index
  (t, 0), the six parameter windows (0, 0) or (0)); an element of a block sits in its array, on each axis, at block index
  times block size plus its own coordinate; the entry (p, q) of the body's result is the row function of the
  specification on row p of the loaded block.
-/
import proofs.«138215_j42571715837967_1_alg».proof.Proof.FrameKI
import proofs.«138215_j42571715837967_1_alg».proof.Proof.MsgPay
import proofs.«138215_j42571715837967_1_alg».proof.Proof.Spec
import Idealize.ShloMosaic.Lib.Pipeline.Value
import Idealize.ShloMosaic.Lib.ValueIdx

noncomputable section

namespace Cert.KernelIdeal.TwoRegions

open Cert.KernelIdeal Cert.KernelIdeal.Gen Cert.KernelIdeal.PayValue Idealize.ShloMosaic Idealize.ShloMosaic.ValueIdx
open Idealize.ShloMosaic.TcCoe Idealize.SL.Sem
open Idealize.ShloMosaic.Pipeline (Dat)

/-- The message perceptron applied to every row of a whole array. -/
def msgArr (A : S800000x160.Idx → EReal) (w1 : S160x128.Idx → EReal) (b1 g be : S128.Idx → EReal)
    (w2 : S128x128.Idx → EReal) (b2 : S128.Idx → EReal) : S800000x128.Idx → EReal := fun i =>
  Cert.Spec.mlpRow (fun k : Fin 160 => A (ix2 (⟨(i 0).val, idx2_lt0 i⟩ : Fin 800000) k)) (fun (k : Fin 160) (j : Fin 128) => w1 (ix2 k j))
    (fun j : Fin 128 => b1 (ix1 j)) (fun j : Fin 128 => g (ix1 j)) (fun j : Fin 128 => be (ix1 j))
    (fun (j : Fin 128) (i' : Fin 128) => w2 (ix2 j i')) (fun i' : Fin 128 => b2 (ix1 i')) (⟨(i 1).val, idx2_lt1 i⟩ : Fin 128)

/-- The zero offsets of a rank-2 access, spelt as a constant function. -/
theorem msg_zeroOff2 : (![0, 0] : Fin 2 → Nat) = fun _ => 0 := funext fun a => by fin_cases a <;> rfl
/-- The zero offset of a rank-1 access, spelt as a constant function. -/
theorem msg_zeroOff1 : (![0] : Fin 1 → Nat) = fun _ => 0 := funext fun a => by fin_cases a <;> rfl

/-- The index maps over the grid: the two row-blocked windows are at block (t, 0), every parameter window at block zero. -/
theorem msg_index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

section Blocks
variable (V : (c : Dev nD) → (b : Ref sig .tc) → Buf (Elt Ideal) ((c : Thread nD τ).loc b))

/-! ## Each input block, read off its array -/

/-- The block of edge inputs at point t is rows 6400·t … of the array: its entry y is the array's entry i whenever i's
    row is 6400·t plus y's row and the columns agree. -/
theorem msg_rows_apply (c : Dev nD) (t : Fin cfg0.N) (y : S6400x160.Idx) (i : S800000x160.Idx)
    (h0 : (i 0).val = t.val * 6400 + (y 0).val) (h1 : (i 1).val = (y 1).val) :
    (iblk0 V c 0 t : Vec Ideal S6400x160 .f32) y = (V c main_v18 : S800000x160.Idx → EReal) i := by
  obtain ⟨e0, e1, -⟩ := msg_index_maps t
  unfold iblk0
  rw [View.read_apply]
  show V c main_v18 _ = V c main_v18 _
  congr 1
  funext a
  apply Fin.ext
  match a with
  | ⟨0, _⟩ => show win0_0.index t (0 : Fin 2) * 6400 + 1 * (y 0).val = (i 0).val; omega
  | ⟨1, _⟩ => show win0_0.index t (1 : Fin 2) * 160 + 1 * (y 1).val = (i 1).val; omega

/-- The first weight matrix's block is the whole matrix at every point. -/
theorem msg_w1_eq (c : Dev nD) (t : Fin cfg0.N) : (iblk0 V c 1 t : Vec Ideal S160x128 .f32) = V c main_arg3 := by
  obtain ⟨-, -, e0, e1, -⟩ := msg_index_maps t
  funext y
  unfold iblk0
  rw [View.read_apply]
  show V c main_arg3 _ = V c main_arg3 y
  congr 1
  funext a
  apply Fin.ext
  match a with
  | ⟨0, _⟩ => show win0_1.index t (0 : Fin 2) * 160 + 1 * (y 0).val = (y 0).val; omega
  | ⟨1, _⟩ => show win0_1.index t (1 : Fin 2) * 128 + 1 * (y 1).val = (y 1).val; omega

/-- The first bias vector's block is the whole vector at every point. -/
theorem msg_b1_eq (c : Dev nD) (t : Fin cfg0.N) : (iblk0 V c 2 t : Vec Ideal S128 .f32) = V c main_arg4 := by
  obtain ⟨-, -, -, -, e0, -⟩ := msg_index_maps t
  funext y
  unfold iblk0
  rw [View.read_apply]
  show V c main_arg4 _ = V c main_arg4 y
  congr 1
  funext a
  apply Fin.ext
  match a with
  | ⟨0, _⟩ => show win0_2.index t (0 : Fin 1) * 128 + 1 * (y 0).val = (y 0).val; omega

/-- The scale vector's block is the whole vector at every point. -/
theorem msg_g_eq (c : Dev nD) (t : Fin cfg0.N) : (iblk0 V c 3 t : Vec Ideal S128 .f32) = V c main_arg5 := by
  obtain ⟨-, -, -, -, -, e0, -⟩ := msg_index_maps t
  funext y
  unfold iblk0
  rw [View.read_apply]
  show V c main_arg5 _ = V c main_arg5 y
  congr 1
  funext a
  apply Fin.ext
  match a with
  | ⟨0, _⟩ => show win0_3.index t (0 : Fin 1) * 128 + 1 * (y 0).val = (y 0).val; omega

/-- The shift vector's block is the whole vector at every point. -/
theorem msg_be_eq (c : Dev nD) (t : Fin cfg0.N) : (iblk0 V c 4 t : Vec Ideal S128 .f32) = V c main_arg6 := by
  obtain ⟨-, -, -, -, -, -, e0, -⟩ := msg_index_maps t
  funext y
  unfold iblk0
  rw [View.read_apply]
  show V c main_arg6 _ = V c main_arg6 y
  congr 1
  funext a
  apply Fin.ext
  match a with
  | ⟨0, _⟩ => show win0_4.index t (0 : Fin 1) * 128 + 1 * (y 0).val = (y 0).val; omega

/-- The second weight matrix's block is the whole matrix at every point. -/
theorem msg_w2_eq (c : Dev nD) (t : Fin cfg0.N) : (iblk0 V c 5 t : Vec Ideal S128x128 .f32) = V c main_arg7 := by
  obtain ⟨-, -, -, -, -, -, -, e0, e1, -⟩ := msg_index_maps t
  funext y
  unfold iblk0
  rw [View.read_apply]
  show V c main_arg7 _ = V c main_arg7 y
  congr 1
  funext a
  apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The output bias vector's block is the whole vector at every point. -/
theorem msg_b2_eq (c : Dev nD) (t : Fin cfg0.N) : (iblk0 V c 6 t : Vec Ideal S128 .f32) = V c main_arg8 := by
  obtain ⟨-, -, -, -, -, -, -, -, -, e0, -⟩ := msg_index_maps t
  funext y
  unfold iblk0
  rw [View.read_apply]
  show V c main_arg8 _ = V c main_arg8 y
  congr 1
  funext a
  apply Fin.ext
  match a with
  | ⟨0, _⟩ => show win0_6.index t (0 : Fin 1) * 128 + 1 * (y 0).val = (y 0).val; omega

end Blocks

/-! ## The body's result on a block is a block of the whole-array function -/

/-- Entry (p, q) of the body's result on loaded blocks is entry i of the whole-array function, when row p of the loaded
    block of inputs is row i₀ of the array, q is i's column, and the parameter blocks are the parameter arrays. -/
theorem msg_block_entry (A : S800000x160.Idx → EReal) (x0 : Vec Ideal S6400x160 .f32) (x1 a1 : Vec Ideal S160x128 .f32)
    (x2 a2 x3 a3 x4 a4 : Vec Ideal S128 .f32) (x5 a5 : Vec Ideal S128x128 .f32) (x6 a6 : Vec Ideal S128 .f32)
    (h1 : x1 = a1) (h2 : x2 = a2) (h3 : x3 = a3) (h4 : x4 = a4) (h5 : x5 = a5) (h6 : x6 = a6)
    (p : Fin 6400) (q : Fin 128) (i : S800000x128.Idx)
    (hrow : ∀ k : Fin 160, x0 (ix2 p k) = A (ix2 (⟨(i 0).val, idx2_lt0 i⟩ : Fin 800000) k)) (hcol : (i 1).val = q.val) :
    k0_pay1 (F := Ideal) (k0_pay2 (F := Ideal) x0 x1 x2 x3 x4 x5) x6 (ix2 p q) = msgArr A a1 a2 a3 a4 a5 a6 i := by
  subst h1 h2 h3 h4 h5 h6
  rw [msg_pay_apply]
  unfold msgArr
  rw [show (fun k : Fin 160 => x0 (ix2 p k)) = fun k : Fin 160 => A (ix2 (⟨(i 0).val, idx2_lt0 i⟩ : Fin 800000) k)
    from funext hrow]
  exact congrArg _ (Fin.ext hcol.symm)

section Final
variable (V : (c : Dev nD) → (b : Ref sig .tc) → Buf (Elt Ideal) ((c : Thread nD τ).loc b))

/-- What point t writes back is block t of the whole-array function of the arrays as the region finds them. -/
theorem msg_flushed_eq (c : Dev nD) (t : Fin cfg0.N) :
    (dat0 (F := Ideal) V c).flushed 7 t
      = ((cfg0.win 7).blk t).view.read (Elt Ideal) (msgArr (V c main_v18) (V c main_arg3) (V c main_arg4) (V c main_arg5)
          (V c main_arg6) (V c main_arg7) (V c main_arg8)) := by
  show (cfg0.win 7).cut (grid0.coords t) ((dat0 (F := Ideal) V c).after 7 t) = _
  rw [after0_7]
  unfold out0_7
  rw [View.canon_unit_zero msg_zeroOff2]
  simp only [View.ld_unit_zero (S := S6400x160) msg_zeroOff2, View.ld_unit_zero (S := S160x128) msg_zeroOff2,
    View.ld_unit_zero (S := S128) msg_zeroOff1, View.ld_unit_zero (S := S128x128) msg_zeroOff2]
  obtain ⟨-, -, -, -, -, -, -, -, -, -, e0, e1⟩ := msg_index_maps t
  funext y
  obtain ⟨p, q, rfl⟩ : ∃ (p : Fin 6400) (q : Fin 128), y = ix2 p q := ⟨y 0, y 1, eq_ix2 y⟩
  show k0_pay1 (F := Ideal) (k0_pay2 (F := Ideal) (iblk0 V c 0 t) (iblk0 V c 1 t) (iblk0 V c 2 t) (iblk0 V c 3 t)
      (iblk0 V c 4 t) (iblk0 V c 5 t)) (iblk0 V c 6 t) (ix2 p q)
    = msgArr (V c main_v18) (V c main_arg3) (V c main_arg4) (V c main_arg5) (V c main_arg6) (V c main_arg7)
        (V c main_arg8) (((cfg0.win 7).blk t).view.emb (ix2 p q))
  refine msg_block_entry (V c main_v18) _ _ _ _ _ _ _ _ _ _ _ _ _ (msg_w1_eq V c t) (msg_b1_eq V c t) (msg_g_eq V c t)
    (msg_be_eq V c t) (msg_w2_eq V c t) (msg_b2_eq V c t) p q _ (fun k => ?_) ?_
  · refine msg_rows_apply V c t (ix2 p k) _ ?_ rfl
    show (((cfg0.win 7).blk t).view.emb (ix2 p q) 0).val = t.val * 6400 + p.val
    show win0_7.index t (0 : Fin 2) * 6400 + 1 * p.val = t.val * 6400 + p.val
    omega
  · show win0_7.index t (1 : Fin 2) * 128 + 1 * q.val = q.val
    omega

/-- An index of the output array is in point t's block iff each coordinate is in the block's range on its axis. -/
theorem msg_mem_blk (t : Fin cfg0.N) (i : S800000x128.Idx) :
    i ∈ ((cfg0.win 7).blk t).view.set ↔ ∀ a : Fin 2, win0_7.index t a * S6400x128.size a ≤ (i a).val
      ∧ (i a).val < win0_7.index t a * S6400x128.size a + S6400x128.size a := by
  show i ∈ ((View.whole main_v19).slice (win0_7.rect t)).set ↔ _
  rw [View.set_slice_whole, Rect.mem_set_unit]
  exact Iff.rfl

/-- Every index of the output array is in the block of a point that writes back: row r is in the block of point r / 6400. -/
theorem msg_cover (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have hN : cfg0.N = 125 := N_0
  have hlt : (i 0).val / 6400 < cfg0.N := by rw [hN]; omega
  obtain ⟨-, -, -, -, -, -, -, -, -, -, e0, e1⟩ := msg_index_maps ⟨(i 0).val / 6400, hlt⟩
  refine ⟨⟨(i 0).val / 6400, hlt⟩, flush0_7 _, ?_⟩
  rw [msg_mem_blk]
  intro a
  match a with
  | ⟨0, _⟩ =>
    show win0_7.index ⟨(i 0).val / 6400, hlt⟩ (0 : Fin 2) * 6400 ≤ (i 0).val
      ∧ (i 0).val < win0_7.index ⟨(i 0).val / 6400, hlt⟩ (0 : Fin 2) * 6400 + 6400
    rw [e0]
    show (i 0).val / 6400 * 6400 ≤ (i 0).val ∧ (i 0).val < (i 0).val / 6400 * 6400 + 6400
    omega
  | ⟨1, _⟩ =>
    show win0_7.index ⟨(i 0).val / 6400, hlt⟩ (1 : Fin 2) * 128 ≤ (i 1).val
      ∧ (i 1).val < win0_7.index ⟨(i 0).val / 6400, hlt⟩ (1 : Fin 2) * 128 + 128
    rw [e1]
    omega

/-- The output array after the region, entered at any contents: the whole-array function of the arrays as entered. -/
theorem final0_at (c : Dev nD) :
    (dat0 (F := Ideal) V c).arrAt 7 cfg0.N
      = msgArr (V c main_v18) (V c main_arg3) (V c main_arg4) (V c main_arg5) (V c main_arg6) (V c main_arg7)
          (V c main_arg8) :=
  (dat0 (F := Ideal) V c).arrAt_eq_of_cover 7 (msgArr (V c main_v18) (V c main_arg3) (V c main_arg4) (V c main_arg5)
      (V c main_arg6) (V c main_arg7) (V c main_arg8)) (fun t _ => msg_flushed_eq V c t) msg_cover

end Final

/-- The output array after the message perceptron's region, as a function of the arrays the region is entered with. -/
theorem final0 (m : (ℓ : Loc nD τ sig) → Buf (Elt Ideal) ℓ) (ρ : Dev nD → PrngReg) (c : Dev nD) :
    (dat0 (F := Ideal) (E1 m ρ) c).arrAt 7 cfg0.N
      = msgArr (E1 m ρ c main_v18) (E1 m ρ c main_arg3) (E1 m ρ c main_arg4) (E1 m ρ c main_arg5) (E1 m ρ c main_arg6)
          (E1 m ρ c main_arg7) (E1 m ρ c main_arg8) :=
  final0_at (E1 m ρ) c

end Cert.KernelIdeal.TwoRegions

end
-- ==== Proof.UpdPay.lean ====
/-
  The update perceptron with its residual on one block of 5000 rows, read at an entry.

  The block computation takes the 5000 rows of 192 features, keeps their first 64 columns aside, multiplies the rows
  by the first weight matrix from a zero accumulator, adds the biases, normalises each row over its 128 channels,
  scales and shifts, applies x ↦ x · logistic x, multiplies by the second weight matrix from a zero accumulator, adds
  the output biases, and adds the result to the columns kept aside. It is the perceptron on a block of 5000 rows of
  the common module, at the shape relations and the two dimension records of this block; the cast of the rows to
  their own shape is the identity, and the slice of the first 64 columns reads column q at (p, q). Read at (p, q),
  it is therefore entry (p, q) of the rows plus the row function of the specification on row p, at output channel q.
-/
import proofs.«138215_j42571715837967_1_alg».proof.Proof.Gen.KernelIdeal.Skeleton
import proofs.«138215_j42571715837967_1_alg».proof.Proof.Spec
import proofs.«138215_j42571715837967_1_alg».proof.Proof.PayCommon

noncomputable section

namespace Cert.KernelIdeal.PayValue

open Cert.KernelIdeal Cert.KernelIdeal.Gen Idealize.ShloMosaic Idealize.ShloMosaic.ValueIdx
open scoped BigOperators

/-- The shape relations of a block of 5000 rows. -/
theorem updFacts : BlkFacts 5000 :=
  ⟨Gen.reduces_S5000x128_S5000, Gen.shapeCasts_S5000_S5000x1, Gen.broadcasts_S5000x1_S5000x128,
    Gen.shapeCasts_S128_S1x128, Gen.broadcasts_S1x128_S5000x128, Gen.bitsLt_bf16_f32⟩

/-- The block computation before the output biases and the residual is the common perceptron on a block of 5000
    rows: the two are the same chain of operations. -/
theorem k1_pay4_eq (x : Vec Ideal S5000x192 .f32) (w1 : Vec Ideal S192x128 .f32) (b1 g be : Vec Ideal S128 .f32)
    (w2 : Vec Ideal S128x64 .f32) :
    k1_pay4 (F := Ideal) x w1 b1 g be w2
      = mlpBlk updFacts dot_S5000x192_S192x128_S5000x128_1_0_0_1_n_n dot_S5000x128_S128x64_S5000x64_1_0_0_1_n_n
          (shapeCast S5000x192 x Gen.shapeCasts_S5000x192_S5000x192) w1 b1 g be w2 := rfl

/-- The first 64 columns of the rows, read at (p, q), are the rows at (p, q). -/
theorem k1_pay3_apply (x : Vec Ideal S5000x192 .f32) (p : Fin 5000) (q : Fin 64) :
    k1_pay3 (F := Ideal) x (ix2 p q) = x (ix2 p (Fin.castLE (by decide : 64 ≤ 192) q)) := by
  show extractStridedSlice S5000x64 ![0, 0] (shapeCast S5000x192 x Gen.shapeCasts_S5000x192_S5000x192)
      Gen.slices_S5000x192_o0_0_S5000x64 (ix2 p q) = _
  rw [shapeCast_self]
  exact slice2_axis1_apply 0 x Gen.slices_S5000x192_o0_0_S5000x64 p q (Fin.castLE (by decide : 64 ≤ 192) q)
    (Nat.zero_add _).symm

/-- Adding the output biases, a row repeated over the 5000 rows, and then the residual, adds bias q and the residual's
    entry at (p, q). -/
theorem k1_pay1_apply (r v : FVec Ideal S5000x64 .f32) (b2 : Vec Ideal S64 .f32) (p : Fin 5000) (q : Fin 64) :
    k1_pay1 (F := Ideal) r v b2 (ix2 p q) = r (ix2 p q) + (v (ix2 p q) + b2 (ix1 q)) := by
  show r (ix2 p q) + (v (ix2 p q) + broadcastTo S5000x64 (shapeCast S1x64 b2 Gen.shapeCasts_S64_S1x64)
      Gen.broadcasts_S1x64_S5000x64 (ix2 p q)) = _
  rw [broadcastTo_1b_ab_apply, shapeCast_a_1a_apply]

/-- The update perceptron's block computation at (p, q) is the residual entry plus the specification's row function
    on row p. -/
theorem upd_pay_apply (x : Vec Ideal S5000x192 .f32) (w1 : Vec Ideal S192x128 .f32) (b1 g be : Vec Ideal S128 .f32)
    (w2 : Vec Ideal S128x64 .f32) (b2 : Vec Ideal S64 .f32) (p : Fin 5000) (q : Fin 64) :
    k1_pay1 (F := Ideal) (k1_pay3 (F := Ideal) x) (k1_pay4 (F := Ideal) x w1 b1 g be w2) b2 (ix2 p q)
      = x (ix2 p (Fin.castLE (by decide : 64 ≤ 192) q))
        + Cert.Spec.mlpRow (fun k : Fin 192 => x (ix2 p k)) (fun (k : Fin 192) (j : Fin 128) => w1 (ix2 k j))
          (fun j : Fin 128 => b1 (ix1 j)) (fun j : Fin 128 => g (ix1 j)) (fun j : Fin 128 => be (ix1 j))
          (fun (j : Fin 128) (i : Fin 64) => w2 (ix2 j i)) (fun i : Fin 64 => b2 (ix1 i)) q := by
  rw [k1_pay1_apply, k1_pay3_apply, k1_pay4_eq, mlpBlk_apply updFacts dot_S5000x192_S192x128_S5000x128_1_0_0_1_n_n rfl
    dot_S5000x128_S128x64_S5000x64_1_0_0_1_n_n rfl, shapeCast_self]
  rfl

end Cert.KernelIdeal.PayValue

end
-- ==== Proof.BlocksKI1.lean ====
/-
  From the blocks of the update perceptron's region to its whole output array.

  The region walks a grid of 20 points. At point t the kernel's body reads rows 5000·t … 5000·t + 4999 of the array of
  node inputs (100000 rows of 192 features) and the six parameter arrays whole, and leaves in the output window's buffer,
  for each of those rows, the first 64 features of the row plus the perceptron of the row; the buffer is written back
  to rows 5000·t … 5000·t + 4999 of the output array (100000 rows of 64 channels). Both summands act row by row, so the
  block that point t writes back is the block of ONE function of the whole arrays: output row r is the first 64 features
  of input row r plus the perceptron of input row r. Every row r lies in the block of the point r / 5000, and every point
  writes back; so after the last point the output array is that function.

  In detail: the index maps of the windows are decided once over the grid (the two row-blocked windows have block index
  (t, 0), the six parameter windows (0, 0) or (0)); an element of a block sits in its array, on each axis, at block index
  times block size plus its own coordinate; the entry (p, q) of the body's result is entry (p, q) of the loaded block of
  inputs plus the row function of the specification on row p of that block.
-/
import proofs.«138215_j42571715837967_1_alg».proof.Proof.FrameKI
import proofs.«138215_j42571715837967_1_alg».proof.Proof.UpdPay
import proofs.«138215_j42571715837967_1_alg».proof.Proof.Spec
import Idealize.ShloMosaic.Lib.Pipeline.Value
import Idealize.ShloMosaic.Lib.ValueIdx

noncomputable section

namespace Cert.KernelIdeal.TwoRegions

open Cert.KernelIdeal Cert.KernelIdeal.Gen Cert.KernelIdeal.PayValue Idealize.ShloMosaic Idealize.ShloMosaic.ValueIdx
open Idealize.ShloMosaic.TcCoe Idealize.SL.Sem
open Idealize.ShloMosaic.Pipeline (Dat)

/-- The update perceptron with its residual applied to every row of a whole array of 192 columns: the first 64 columns
    of the row plus the perceptron of the row. -/
def updArr (B : S100000x192.Idx → EReal) (w1 : S192x128.Idx → EReal) (b1 g be : S128.Idx → EReal)
    (w2 : S128x64.Idx → EReal) (b2 : S64.Idx → EReal) : S100000x64.Idx → EReal := fun i =>
  B (ix2 (⟨(i 0).val, idx2_lt0 i⟩ : Fin 100000) (Fin.castLE (by decide : 64 ≤ 192) (⟨(i 1).val, idx2_lt1 i⟩ : Fin 64)))
  + Cert.Spec.mlpRow (fun k : Fin 192 => B (ix2 (⟨(i 0).val, idx2_lt0 i⟩ : Fin 100000) k)) (fun (k : Fin 192) (j : Fin 128) => w1 (ix2 k j))
    (fun j : Fin 128 => b1 (ix1 j)) (fun j : Fin 128 => g (ix1 j)) (fun j : Fin 128 => be (ix1 j))
    (fun (j : Fin 128) (i' : Fin 64) => w2 (ix2 j i')) (fun i' : Fin 64 => b2 (ix1 i')) (⟨(i 1).val, idx2_lt1 i⟩ : Fin 64)

/-- The zero offsets of a rank-2 access, spelt as a constant function. -/
theorem upd_zeroOff2 : (![0, 0] : Fin 2 → Nat) = fun _ => 0 := funext fun a => by fin_cases a <;> rfl
/-- The zero offset of a rank-1 access, spelt as a constant function. -/
theorem upd_zeroOff1 : (![0] : Fin 1 → Nat) = fun _ => 0 := funext fun a => by fin_cases a <;> rfl

/-- The index maps over the grid: the two row-blocked windows are at block (t, 0), every parameter window at block zero. -/
theorem upd_index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0 ∧ win1_3.index t (0 : Fin 1) = 0 ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b))

/-! ## Each input block, read off its array -/

/-- The block of node inputs at point t is rows 5000·t … of the array: its entry y is the array's entry i whenever i's
    row is 5000·t plus y's row and the columns agree. -/
theorem upd_rows_apply (c : Dev nD) (t : Fin cfg1.N) (y : S5000x192.Idx) (i : S100000x192.Idx)
    (h0 : (i 0).val = t.val * 5000 + (y 0).val) (h1 : (i 1).val = (y 1).val) :
    (iblk1 V c 0 t : Vec Ideal S5000x192 .f32) y = (V c main_v23 : S100000x192.Idx → EReal) i := by
  obtain ⟨e0, e1, -⟩ := upd_index_maps t
  unfold iblk1
  rw [View.read_apply]
  show V c main_v23 _ = V c main_v23 _
  congr 1
  funext a
  apply Fin.ext
  match a with
  | ⟨0, _⟩ => show win1_0.index t (0 : Fin 2) * 5000 + 1 * (y 0).val = (i 0).val; omega
  | ⟨1, _⟩ => show win1_0.index t (1 : Fin 2) * 192 + 1 * (y 1).val = (i 1).val; omega

/-- The first weight matrix's block is the whole matrix at every point. -/
theorem upd_w1_eq (c : Dev nD) (t : Fin cfg1.N) : (iblk1 V c 1 t : Vec Ideal S192x128 .f32) = V c main_arg9 := by
  obtain ⟨-, -, e0, e1, -⟩ := upd_index_maps t
  funext y
  unfold iblk1
  rw [View.read_apply]
  show V c main_arg9 _ = V c main_arg9 y
  congr 1
  funext a
  apply Fin.ext
  match a with
  | ⟨0, _⟩ => show win1_1.index t (0 : Fin 2) * 192 + 1 * (y 0).val = (y 0).val; omega
  | ⟨1, _⟩ => show win1_1.index t (1 : Fin 2) * 128 + 1 * (y 1).val = (y 1).val; omega

/-- The first bias vector's block is the whole vector at every point. -/
theorem upd_b1_eq (c : Dev nD) (t : Fin cfg1.N) : (iblk1 V c 2 t : Vec Ideal S128 .f32) = V c main_arg10 := by
  obtain ⟨-, -, -, -, e0, -⟩ := upd_index_maps t
  funext y
  unfold iblk1
  rw [View.read_apply]
  show V c main_arg10 _ = V c main_arg10 y
  congr 1
  funext a
  apply Fin.ext
  match a with
  | ⟨0, _⟩ => show win1_2.index t (0 : Fin 1) * 128 + 1 * (y 0).val = (y 0).val; omega

/-- The scale vector's block is the whole vector at every point. -/
theorem upd_g_eq (c : Dev nD) (t : Fin cfg1.N) : (iblk1 V c 3 t : Vec Ideal S128 .f32) = V c main_arg11 := by
  obtain ⟨-, -, -, -, -, e0, -⟩ := upd_index_maps t
  funext y
  unfold iblk1
  rw [View.read_apply]
  show V c main_arg11 _ = V c main_arg11 y
  congr 1
  funext a
  apply Fin.ext
  match a with
  | ⟨0, _⟩ => show win1_3.index t (0 : Fin 1) * 128 + 1 * (y 0).val = (y 0).val; omega

/-- The shift vector's block is the whole vector at every point. -/
theorem upd_be_eq (c : Dev nD) (t : Fin cfg1.N) : (iblk1 V c 4 t : Vec Ideal S128 .f32) = V c main_arg12 := by
  obtain ⟨-, -, -, -, -, -, e0, -⟩ := upd_index_maps t
  funext y
  unfold iblk1
  rw [View.read_apply]
  show V c main_arg12 _ = V c main_arg12 y
  congr 1
  funext a
  apply Fin.ext
  match a with
  | ⟨0, _⟩ => show win1_4.index t (0 : Fin 1) * 128 + 1 * (y 0).val = (y 0).val; omega

/-- The second weight matrix's block is the whole matrix at every point. -/
theorem upd_w2_eq (c : Dev nD) (t : Fin cfg1.N) : (iblk1 V c 5 t : Vec Ideal S128x64 .f32) = V c main_arg13 := by
  obtain ⟨-, -, -, -, -, -, -, e0, e1, -⟩ := upd_index_maps t
  funext y
  unfold iblk1
  rw [View.read_apply]
  show V c main_arg13 _ = V c main_arg13 y
  congr 1
  funext a
  apply Fin.ext
  match a with
  | ⟨0, _⟩ => show win1_5.index t (0 : Fin 2) * 128 + 1 * (y 0).val = (y 0).val; omega
  | ⟨1, _⟩ => show win1_5.index t (1 : Fin 2) * 64 + 1 * (y 1).val = (y 1).val; omega

/-- The output bias vector's block is the whole vector at every point. -/
theorem upd_b2_eq (c : Dev nD) (t : Fin cfg1.N) : (iblk1 V c 6 t : Vec Ideal S64 .f32) = V c main_arg14 := by
  obtain ⟨-, -, -, -, -, -, -, -, -, e0, -⟩ := upd_index_maps t
  funext y
  unfold iblk1
  rw [View.read_apply]
  show V c main_arg14 _ = V c main_arg14 y
  congr 1
  funext a
  apply Fin.ext
  match a with
  | ⟨0, _⟩ => show win1_6.index t (0 : Fin 1) * 64 + 1 * (y 0).val = (y 0).val; omega

end Blocks

/-! ## The body's result on a block is a block of the whole-array function -/

/-- Entry (p, q) of the body's result on loaded blocks is entry i of the whole-array function, when row p of the loaded
    block of inputs is row i₀ of the array, q is i's column, and the parameter blocks are the parameter arrays. -/
theorem upd_block_entry (B : S100000x192.Idx → EReal) (x0 : Vec Ideal S5000x192 .f32) (x1 a1 : Vec Ideal S192x128 .f32)
    (x2 a2 x3 a3 x4 a4 : Vec Ideal S128 .f32) (x5 a5 : Vec Ideal S128x64 .f32) (x6 a6 : Vec Ideal S64 .f32)
    (h1 : x1 = a1) (h2 : x2 = a2) (h3 : x3 = a3) (h4 : x4 = a4) (h5 : x5 = a5) (h6 : x6 = a6)
    (p : Fin 5000) (q : Fin 64) (i : S100000x64.Idx)
    (hrow : ∀ k : Fin 192, x0 (ix2 p k) = B (ix2 (⟨(i 0).val, idx2_lt0 i⟩ : Fin 100000) k)) (hcol : (i 1).val = q.val) :
    k1_pay1 (F := Ideal) (k1_pay3 (F := Ideal) x0) (k1_pay4 (F := Ideal) x0 x1 x2 x3 x4 x5) x6 (ix2 p q)
      = updArr B a1 a2 a3 a4 a5 a6 i := by
  subst h1 h2 h3 h4 h5 h6
  obtain rfl : q = (⟨(i 1).val, idx2_lt1 i⟩ : Fin 64) := Fin.ext hcol.symm
  rw [upd_pay_apply]
  unfold updArr
  rw [show (fun k : Fin 192 => x0 (ix2 p k)) = fun k : Fin 192 => B (ix2 (⟨(i 0).val, idx2_lt0 i⟩ : Fin 100000) k)
    from funext hrow, hrow]

section Final
variable (V : (c : Dev nD) → (b : Ref sig .tc) → Buf (Elt Ideal) ((c : Thread nD τ).loc b))

/-- What point t writes back is block t of the whole-array function of the arrays as the region finds them. -/
theorem upd_flushed_eq (c : Dev nD) (t : Fin cfg1.N) :
    (dat1 (F := Ideal) V c).flushed 7 t
      = ((cfg1.win 7).blk t).view.read (Elt Ideal) (updArr (V c main_v23) (V c main_arg9) (V c main_arg10) (V c main_arg11)
          (V c main_arg12) (V c main_arg13) (V c main_arg14)) := by
  show (cfg1.win 7).cut (grid1.coords t) ((dat1 (F := Ideal) V c).after 7 t) = _
  rw [after1_7]
  unfold out1_7
  rw [View.canon_unit_zero upd_zeroOff2]
  simp only [View.ld_unit_zero (S := S5000x192) upd_zeroOff2, View.ld_unit_zero (S := S192x128) upd_zeroOff2,
    View.ld_unit_zero (S := S128) upd_zeroOff1, View.ld_unit_zero (S := S128x64) upd_zeroOff2,
    View.ld_unit_zero (S := S64) upd_zeroOff1]
  obtain ⟨-, -, -, -, -, -, -, -, -, -, e0, e1⟩ := upd_index_maps t
  funext y
  obtain ⟨p, q, rfl⟩ : ∃ (p : Fin 5000) (q : Fin 64), y = ix2 p q := ⟨y 0, y 1, eq_ix2 y⟩
  show k1_pay1 (F := Ideal) (k1_pay3 (F := Ideal) (iblk1 V c 0 t)) (k1_pay4 (F := Ideal) (iblk1 V c 0 t) (iblk1 V c 1 t)
      (iblk1 V c 2 t) (iblk1 V c 3 t) (iblk1 V c 4 t) (iblk1 V c 5 t)) (iblk1 V c 6 t) (ix2 p q)
    = updArr (V c main_v23) (V c main_arg9) (V c main_arg10) (V c main_arg11) (V c main_arg12) (V c main_arg13)
        (V c main_arg14) (((cfg1.win 7).blk t).view.emb (ix2 p q))
  refine upd_block_entry (V c main_v23) _ _ _ _ _ _ _ _ _ _ _ _ _ (upd_w1_eq V c t) (upd_b1_eq V c t) (upd_g_eq V c t)
    (upd_be_eq V c t) (upd_w2_eq V c t) (upd_b2_eq V c t) p q _ (fun k => ?_) ?_
  · refine upd_rows_apply V c t (ix2 p k) _ ?_ rfl
    show (((cfg1.win 7).blk t).view.emb (ix2 p q) 0).val = t.val * 5000 + p.val
    show win1_7.index t (0 : Fin 2) * 5000 + 1 * p.val = t.val * 5000 + p.val
    omega
  · show win1_7.index t (1 : Fin 2) * 64 + 1 * q.val = q.val
    omega

/-- An index of the output array is in point t's block iff each coordinate is in the block's range on its axis. -/
theorem upd_mem_blk (t : Fin cfg1.N) (i : S100000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v24).slice (win1_7.rect t)).set ↔ _
  rw [View.set_slice_whole, Rect.mem_set_unit]
  exact Iff.rfl

/-- Every index of the output array is in the block of a point that writes back: row r is in the block of point r / 5000. -/
theorem upd_cover (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, -, -, -, -, -, -, e0, e1⟩ := upd_index_maps ⟨(i 0).val / 5000, hlt⟩
  refine ⟨⟨(i 0).val / 5000, hlt⟩, flush1_7 _, ?_⟩
  rw [upd_mem_blk]
  intro a
  match a with
  | ⟨0, _⟩ =>
    show win1_7.index ⟨(i 0).val / 5000, hlt⟩ (0 : Fin 2) * 5000 ≤ (i 0).val
      ∧ (i 0).val < win1_7.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win1_7.index ⟨(i 0).val / 5000, hlt⟩ (1 : Fin 2) * 64 ≤ (i 1).val
      ∧ (i 1).val < win1_7.index ⟨(i 0).val / 5000, hlt⟩ (1 : Fin 2) * 64 + 64
    rw [e1]
    omega

/-- The output array after the region, entered at any contents: the whole-array function of the arrays as entered. -/
theorem final1_at (c : Dev nD) :
    (dat1 (F := Ideal) V c).arrAt 7 cfg1.N
      = updArr (V c main_v23) (V c main_arg9) (V c main_arg10) (V c main_arg11) (V c main_arg12) (V c main_arg13)
          (V c main_arg14) :=
  (dat1 (F := Ideal) V c).arrAt_eq_of_cover 7 (updArr (V c main_v23) (V c main_arg9) (V c main_arg10) (V c main_arg11)
      (V c main_arg12) (V c main_arg13) (V c main_arg14)) (fun t _ => upd_flushed_eq V c t) upd_cover

end Final

/-- The output array after the update perceptron's region, as a function of the arrays the region is entered with. -/
theorem final1 (m : (ℓ : Loc nD τ sig) → Buf (Elt Ideal) ℓ) (ρ : Dev nD → PrngReg) (c : Dev nD) :
    (dat1 (F := Ideal) (E3 m ρ) c).arrAt 7 cfg1.N
      = updArr (E3 m ρ c main_v23) (E3 m ρ c main_arg9) (E3 m ρ c main_arg10) (E3 m ρ c main_arg11) (E3 m ρ c main_arg12)
          (E3 m ρ c main_arg13) (E3 m ρ c main_arg14) :=
  final1_at (E3 m ρ) c

end Cert.KernelIdeal.TwoRegions

end
-- ==== Proof.BlocksKI.lean ====
/-
  From blocks to whole arrays, for both regions: the message perceptron's output array (final0, over msgArr) and the
  update perceptron's output array with its residual (final1, over updArr). Each region's argument is in its own module;
  this one only gathers them.
-/
import proofs.«138215_j42571715837967_1_alg».proof.Proof.BlocksKI0
import proofs.«138215_j42571715837967_1_alg».proof.Proof.BlocksKI1
-- ==== Proof.RefCommon.lean ====
/-
  Facts on the extended reals shared by the two readings of the reference's perceptrons.

  The float word of one denotes the number one, so the activation the reference writes out,
  x · (1 / (1 + e^(−x))), is x · logistic x; a sum started from the float word of zero is the sum itself.
-/
import Idealize.ShloMosaic.PureOps.Ideal.Laws
import Idealize.ShloMosaic.PureOps.IdealRules

noncomputable section

namespace Cert.ReferenceIdeal.RefValue

open Idealize.ShloMosaic
open scoped BigOperators

/-- The float word `0x3F800000` denotes one. -/
theorem ofBits_one_f32 : Ideal.ofBits .f32 0x3F800000#32 = 1 :=
  IdealRules.sign_bit.ideal_onePat .f32

/-- A sum started from the float word of zero is the sum. -/
theorem zero_word_add (s : EReal) : Ideal.ofBits .f32 0x00000000#32 + s = s := by
  rw [Ideal.ofBits_zero_f32, zero_add]

/-- The activation as the reference spells it: `x` times the quotient of one by one plus `e^(−x)`. -/
theorem silu_spelt (x : EReal) :
    x * Ideal.div (Ideal.ofBits .f32 0x3F800000#32) (Ideal.ofBits .f32 0x3F800000#32 + Ideal.exp (-x))
      = x * Ideal.logistic x := by
  rw [ofBits_one_f32]
  rfl

end Cert.ReferenceIdeal.RefValue

end
-- ==== Proof.RefMsg.lean ====
/-
  The reference's message perceptron, read at an index.

  Row `r` of the reference's first perceptron is the row function of the specification applied to row `r` of the
  array of concatenated gathered features, which stays an opaque array here. The product with the first weights plus
  the bias is `hidden`; the lane sum over the 128 channels divided by the channel count is the mean; the lane sum of
  the squared deviations divided by the channel count, stabilised, under the inverse square root, times the deviation,
  scaled and shifted, is `normed`; the value times one over one plus the exponential of its negation is `act`;
  the product with the second weights plus the second bias is the row function.
-/
import proofs.«138215_j42571715837967_1_alg».proof.Proof.Gen.ReferenceIdeal.Read
import proofs.«138215_j42571715837967_1_alg».proof.Proof.Spec
import proofs.«138215_j42571715837967_1_alg».proof.Proof.RefCommon

noncomputable section

namespace Cert.ReferenceIdeal.RefValue

open Cert.ReferenceIdeal Cert.ReferenceIdeal.Gen Cert.ReferenceIdeal.Read Idealize.ShloMosaic Idealize.ShloMosaic.ValueIdx
open scoped BigOperators

set_option quotPrecheck false in
local notation "C[" S ", " φ "]" => ((⟨S, φ⟩ : BufTy).Contents (Elt Ideal))

/-! ## The composed index maps of the stages, at coordinates -/

theorem msg_lidx19 (r : Fin 800000) (j : Fin 128) (k : Fin 160) : lidx_main_v19 (ix2 r j) k = ix2 r k := by
  funext a; match a with | ⟨0, _⟩ => rfl | ⟨1, _⟩ => rfl
theorem msg_ridx19 (r : Fin 800000) (j : Fin 128) (k : Fin 160) : ridx_main_v19 (ix2 r j) k = ix2 k j := by
  funext a; match a with | ⟨0, _⟩ => rfl | ⟨1, _⟩ => rfl
theorem msg_idx21 (r : Fin 800000) (j : Fin 128) : idx_main_v20 (idx_main_v21 (ix2 r j)) = ix1 j := by
  funext a; match a with | ⟨0, _⟩ => rfl
theorem msg_idx23 (r : Fin 800000) (k : Fin 128) : idx_main_v23 (ix1 r) k = ix2 r k := by
  funext a; match a with | ⟨0, _⟩ => rfl | ⟨1, _⟩ => rfl
theorem msg_idx24 (r : Fin 800000) (u : Fin 1) : idx_main_v24 (ix2 r u) = ix1 r := by
  funext a; match a with | ⟨0, _⟩ => rfl
theorem msg_idx27 (r : Fin 800000) (j : Fin 128) : idx_main_v27 (ix2 r j) = ix2 r (0 : Fin 1) := by
  funext a; match a with | ⟨0, _⟩ => rfl | ⟨1, _⟩ => rfl
theorem msg_idx30 (r : Fin 800000) (k : Fin 128) : idx_main_v30 (ix1 r) k = ix2 r k := by
  funext a; match a with | ⟨0, _⟩ => rfl | ⟨1, _⟩ => rfl
theorem msg_idx31 (r : Fin 800000) (u : Fin 1) : idx_main_v31 (ix2 r u) = ix1 r := by
  funext a; match a with | ⟨0, _⟩ => rfl
theorem msg_idx34 (r : Fin 800000) (j : Fin 128) : idx_main_v34 (ix2 r j) = ix2 r (0 : Fin 1) := by
  funext a; match a with | ⟨0, _⟩ => rfl | ⟨1, _⟩ => rfl
theorem msg_idx39 (r : Fin 800000) (j : Fin 128) : idx_main_v39 (ix2 r j) = ix2 r (0 : Fin 1) := by
  funext a; match a with | ⟨0, _⟩ => rfl | ⟨1, _⟩ => rfl
theorem msg_idx42 (r : Fin 800000) (j : Fin 128) : idx_main_v41 (idx_main_v42 (ix2 r j)) = ix1 j := by
  funext a; match a with | ⟨0, _⟩ => rfl
theorem msg_idx45 (r : Fin 800000) (j : Fin 128) : idx_main_v44 (idx_main_v45 (ix2 r j)) = ix1 j := by
  funext a; match a with | ⟨0, _⟩ => rfl
theorem msg_lidx48 (r : Fin 800000) (q : Fin 128) (k : Fin 128) : lidx_main_v48 (ix2 r q) k = ix2 r k := by
  funext a; match a with | ⟨0, _⟩ => rfl | ⟨1, _⟩ => rfl
theorem msg_ridx48 (r : Fin 800000) (q : Fin 128) (k : Fin 128) : ridx_main_v48 (ix2 r q) k = ix2 k q := by
  funext a; match a with | ⟨0, _⟩ => rfl | ⟨1, _⟩ => rfl
theorem msg_idx50 (r : Fin 800000) (q : Fin 128) : idx_main_v49 (idx_main_v50 (ix2 r q)) = ix1 q := by
  funext a; match a with | ⟨0, _⟩ => rfl

section Stages

variable (x0 : C[S100000x64, .f32]) (x1 : C[S2x800000, .i32]) (x2 : C[S800000x32, .f32]) (x3 : C[S160x128, .f32])
  (x4 x5 x6 : C[S128, .f32]) (x7 : C[S128x128, .f32]) (x8 : C[S128, .f32])

/-- The hidden channels of row `r`: the row of the feature array through the first affine map. -/
abbrev msgHid (r : Fin 800000) : Fin 128 → EReal :=
  Cert.Spec.hidden (fun k : Fin 160 => val_main_v18 (F := Ideal) x0 x1 x2 (ix2 r k))
    (fun (k : Fin 160) (j : Fin 128) => x3 (ix2 k j)) (fun j : Fin 128 => x4 (ix1 j))

/-- The squared deviations of the hidden channels of row `r` from their mean. -/
abbrev msgDev2 (r : Fin 800000) : Fin 128 → EReal := fun k =>
  (msgHid x0 x1 x2 x3 x4 r k - Cert.Spec.mean (msgHid x0 x1 x2 x3 x4 r))
    * (msgHid x0 x1 x2 x3 x4 r k - Cert.Spec.mean (msgHid x0 x1 x2 x3 x4 r))

/-- The product with the first weights plus the bias. -/
theorem msg_v22 (r : Fin 800000) (j : Fin 128) :
    val_main_v22 (F := Ideal) x0 x1 x2 x3 x4 (ix2 r j) = msgHid x0 x1 x2 x3 x4 r j := by
  rw [val_main_v22_apply, val_main_v19_apply, val_main_v21_apply, val_main_v20_apply, msg_idx21, Ideal.addf_def]
  refine congrArg (· + x4 (ix1 j)) (Finset.sum_congr rfl fun k _ => ?_)
  rw [msg_lidx19, msg_ridx19]

/-- The lane sum of the hidden channels. -/
theorem msg_v23 (r : Fin 800000) :
    val_main_v23 (F := Ideal) x0 x1 x2 x3 x4 (ix1 r) = ∑ k : Fin 128, msgHid x0 x1 x2 x3 x4 r k := by
  rw [val_main_v23_apply, val_main_cst_apply]
  refine (zero_word_add _).trans (Finset.sum_congr rfl fun k _ => ?_)
  rw [msg_idx23]
  exact msg_v22 x0 x1 x2 x3 x4 r k

/-- The mean of the hidden channels, as a column. -/
theorem msg_v26 (r : Fin 800000) (u : Fin 1) :
    val_main_v26 (F := Ideal) x0 x1 x2 x3 x4 (ix2 r u) = Cert.Spec.mean (msgHid x0 x1 x2 x3 x4 r) := by
  rw [val_main_v26_apply, val_main_v24_apply, val_main_v25_apply, val_main_cst_3_apply, msg_idx24, msg_v23]
  rfl

/-- The deviation from the mean. -/
theorem msg_v28 (r : Fin 800000) (j : Fin 128) :
    val_main_v28 (F := Ideal) x0 x1 x2 x3 x4 (ix2 r j)
      = msgHid x0 x1 x2 x3 x4 r j - Cert.Spec.mean (msgHid x0 x1 x2 x3 x4 r) := by
  rw [val_main_v28_apply, val_main_v27_apply, msg_idx27, msg_v26, msg_v22]
  rfl

/-- The lane sum of the squared deviations. -/
theorem msg_v30 (r : Fin 800000) :
    val_main_v30 (F := Ideal) x0 x1 x2 x3 x4 (ix1 r) = ∑ k : Fin 128, msgDev2 x0 x1 x2 x3 x4 r k := by
  rw [val_main_v30_apply, val_main_cst_4_apply]
  refine (zero_word_add _).trans (Finset.sum_congr rfl fun k _ => ?_)
  rw [msg_idx30, val_main_v29_apply, msg_v28]
  rfl

/-- The variance, as a column. -/
theorem msg_v33 (r : Fin 800000) (u : Fin 1) :
    val_main_v33 (F := Ideal) x0 x1 x2 x3 x4 (ix2 r u) = Cert.Spec.mean (msgDev2 x0 x1 x2 x3 x4 r) := by
  rw [val_main_v33_apply, val_main_v31_apply, val_main_v32_apply, val_main_cst_5_apply, msg_idx31, msg_v30]
  rfl

/-- The inverse square root of the stabilised variance, as a column. -/
theorem msg_v38 (r : Fin 800000) (u : Fin 1) :
    val_main_v38 (F := Ideal) x0 x1 x2 x3 x4 (ix2 r u)
      = Ideal.rsqrt (Cert.Spec.mean (msgDev2 x0 x1 x2 x3 x4 r) + Cert.Spec.eps) := by
  rw [val_main_v38_apply, val_main_v37_apply, val_main_v36_apply, val_main_cst_6_apply, msg_v33]
  rfl

/-- The normalised, scaled and shifted channel. -/
theorem msg_v46 (r : Fin 800000) (j : Fin 128) :
    val_main_v46 (F := Ideal) x0 x1 x2 x3 x4 x5 x6 (ix2 r j)
      = Cert.Spec.normed (msgHid x0 x1 x2 x3 x4 r) (fun j : Fin 128 => x5 (ix1 j)) (fun j : Fin 128 => x6 (ix1 j)) j := by
  rw [val_main_v46_apply, val_main_v43_apply, val_main_v40_apply, val_main_v35_apply, val_main_v34_apply,
    val_main_v39_apply, val_main_v42_apply, val_main_v41_apply, val_main_v45_apply, val_main_v44_apply,
    msg_idx34, msg_idx39, msg_idx42, msg_idx45, msg_v26, msg_v38, msg_v22]
  rfl

/-- The activated channel. -/
theorem msg_v47 (r : Fin 800000) (j : Fin 128) :
    val_main_v47 (F := Ideal) x0 x1 x2 x3 x4 x5 x6 (ix2 r j)
      = Cert.Spec.act (msgHid x0 x1 x2 x3 x4 r) (fun j : Fin 128 => x5 (ix1 j)) (fun j : Fin 128 => x6 (ix1 j)) j := by
  rw [val_main_v47_apply, val_main_call0_v5_apply, val_main_call0_v4_apply, val_main_call0_cst_0_apply,
    val_main_call0_v3_apply, val_main_call0_v2_apply, val_main_call0_cst_apply, val_main_call0_v1_apply,
    val_main_call0_v0_apply, msg_v46]
  exact silu_spelt _

/-- The message perceptron's output at row `r`, channel `q`, is the row function of the specification on row `r` of
    the feature array. -/
theorem msgs_apply (r : Fin 800000) (q : Fin 128) :
    val_main_v51 (F := Ideal) x0 x1 x2 x3 x4 x5 x6 x7 x8 (ix2 r q)
      = Cert.Spec.mlpRow (fun k : Fin 160 => val_main_v18 (F := Ideal) x0 x1 x2 (ix2 r k)) (fun (k : Fin 160) (j : Fin 128) => x3 (ix2 k j))
          (fun j : Fin 128 => x4 (ix1 j)) (fun j : Fin 128 => x5 (ix1 j)) (fun j : Fin 128 => x6 (ix1 j))
          (fun (j : Fin 128) (i : Fin 128) => x7 (ix2 j i)) (fun i : Fin 128 => x8 (ix1 i)) q := by
  rw [val_main_v51_apply, val_main_v48_apply, val_main_v50_apply, val_main_v49_apply, msg_idx50, Ideal.addf_def]
  refine congrArg (· + x8 (ix1 q)) (Finset.sum_congr rfl fun k _ => ?_)
  rw [msg_lidx48, msg_ridx48, msg_v47]

end Stages

end Cert.ReferenceIdeal.RefValue

end
-- ==== Proof.RefUpd.lean ====
/-
  The reference's final result, read at an index.

  Row `r` of the reference's second perceptron is the row function of the specification applied to row `r` of the
  array that joins the node features with the aggregated messages, which stays an opaque array here; the final result
  adds the node feature. The stages are those of the first perceptron with the second set of weights: the product
  with the first weights plus the bias is `hidden`; the lane sum over the 128 channels divided by the channel count is
  the mean; the lane sum of the squared deviations divided by the channel count, stabilised, under the inverse square
  root, times the deviation, scaled and shifted, is `normed`; the value times one over one plus the exponential of its
  negation is `act`; the product with the second weights plus the second bias is the row function.
-/
import proofs.«138215_j42571715837967_1_alg».proof.Proof.Gen.ReferenceIdeal.Read
import proofs.«138215_j42571715837967_1_alg».proof.Proof.Spec
import proofs.«138215_j42571715837967_1_alg».proof.Proof.RefCommon

noncomputable section

namespace Cert.ReferenceIdeal.RefValue

open Cert.ReferenceIdeal Cert.ReferenceIdeal.Gen Cert.ReferenceIdeal.Read Idealize.ShloMosaic Idealize.ShloMosaic.ValueIdx
open scoped BigOperators

set_option quotPrecheck false in
local notation "C[" S ", " φ "]" => ((⟨S, φ⟩ : BufTy).Contents (Elt Ideal))

/-! ## The composed index maps of the stages, at coordinates -/

theorem upd_lidx56 (r : Fin 100000) (j : Fin 128) (k : Fin 192) : lidx_main_v56 (ix2 r j) k = ix2 r k := by
  funext a; match a with | ⟨0, _⟩ => rfl | ⟨1, _⟩ => rfl
theorem upd_ridx56 (r : Fin 100000) (j : Fin 128) (k : Fin 192) : ridx_main_v56 (ix2 r j) k = ix2 k j := by
  funext a; match a with | ⟨0, _⟩ => rfl | ⟨1, _⟩ => rfl
theorem upd_idx58 (r : Fin 100000) (j : Fin 128) : idx_main_v57 (idx_main_v58 (ix2 r j)) = ix1 j := by
  funext a; match a with | ⟨0, _⟩ => rfl
theorem upd_idx60 (r : Fin 100000) (k : Fin 128) : idx_main_v60 (ix1 r) k = ix2 r k := by
  funext a; match a with | ⟨0, _⟩ => rfl | ⟨1, _⟩ => rfl
theorem upd_idx61 (r : Fin 100000) (u : Fin 1) : idx_main_v61 (ix2 r u) = ix1 r := by
  funext a; match a with | ⟨0, _⟩ => rfl
theorem upd_idx64 (r : Fin 100000) (j : Fin 128) : idx_main_v64 (ix2 r j) = ix2 r (0 : Fin 1) := by
  funext a; match a with | ⟨0, _⟩ => rfl | ⟨1, _⟩ => rfl
theorem upd_idx67 (r : Fin 100000) (k : Fin 128) : idx_main_v67 (ix1 r) k = ix2 r k := by
  funext a; match a with | ⟨0, _⟩ => rfl | ⟨1, _⟩ => rfl
theorem upd_idx68 (r : Fin 100000) (u : Fin 1) : idx_main_v68 (ix2 r u) = ix1 r := by
  funext a; match a with | ⟨0, _⟩ => rfl
theorem upd_idx71 (r : Fin 100000) (j : Fin 128) : idx_main_v71 (ix2 r j) = ix2 r (0 : Fin 1) := by
  funext a; match a with | ⟨0, _⟩ => rfl | ⟨1, _⟩ => rfl
theorem upd_idx76 (r : Fin 100000) (j : Fin 128) : idx_main_v76 (ix2 r j) = ix2 r (0 : Fin 1) := by
  funext a; match a with | ⟨0, _⟩ => rfl | ⟨1, _⟩ => rfl
theorem upd_idx79 (r : Fin 100000) (j : Fin 128) : idx_main_v78 (idx_main_v79 (ix2 r j)) = ix1 j := by
  funext a; match a with | ⟨0, _⟩ => rfl
theorem upd_idx82 (r : Fin 100000) (j : Fin 128) : idx_main_v81 (idx_main_v82 (ix2 r j)) = ix1 j := by
  funext a; match a with | ⟨0, _⟩ => rfl
theorem upd_lidx85 (r : Fin 100000) (q : Fin 64) (k : Fin 128) : lidx_main_v85 (ix2 r q) k = ix2 r k := by
  funext a; match a with | ⟨0, _⟩ => rfl | ⟨1, _⟩ => rfl
theorem upd_ridx85 (r : Fin 100000) (q : Fin 64) (k : Fin 128) : ridx_main_v85 (ix2 r q) k = ix2 k q := by
  funext a; match a with | ⟨0, _⟩ => rfl | ⟨1, _⟩ => rfl
theorem upd_idx87 (r : Fin 100000) (q : Fin 64) : idx_main_v86 (idx_main_v87 (ix2 r q)) = ix1 q := by
  funext a; match a with | ⟨0, _⟩ => rfl

section Stages

variable (x0 : C[S100000x64, .f32]) (x1 : C[S2x800000, .i32]) (x2 : C[S800000x32, .f32]) (x3 : C[S160x128, .f32])
  (x4 x5 x6 : C[S128, .f32]) (x7 : C[S128x128, .f32]) (x8 : C[S128, .f32]) (x9 : C[S192x128, .f32])
  (x10 x11 x12 : C[S128, .f32]) (x13 : C[S128x64, .f32]) (x14 : C[S64, .f32])

/-- The hidden channels of row `r`: the row of the feature array through the first affine map. -/
abbrev updHid (r : Fin 100000) : Fin 128 → EReal :=
  Cert.Spec.hidden (fun k : Fin 192 => val_main_v55 (F := Ideal) x0 x1 x2 x3 x4 x5 x6 x7 x8 (ix2 r k))
    (fun (k : Fin 192) (j : Fin 128) => x9 (ix2 k j)) (fun j : Fin 128 => x10 (ix1 j))

/-- The squared deviations of the hidden channels of row `r` from their mean. -/
abbrev updDev2 (r : Fin 100000) : Fin 128 → EReal := fun k =>
  (updHid x0 x1 x2 x3 x4 x5 x6 x7 x8 x9 x10 r k - Cert.Spec.mean (updHid x0 x1 x2 x3 x4 x5 x6 x7 x8 x9 x10 r))
    * (updHid x0 x1 x2 x3 x4 x5 x6 x7 x8 x9 x10 r k - Cert.Spec.mean (updHid x0 x1 x2 x3 x4 x5 x6 x7 x8 x9 x10 r))

/-- The product with the first weights plus the bias. -/
theorem upd_v59 (r : Fin 100000) (j : Fin 128) :
    val_main_v59 (F := Ideal) x0 x1 x2 x3 x4 x5 x6 x7 x8 x9 x10 (ix2 r j) = updHid x0 x1 x2 x3 x4 x5 x6 x7 x8 x9 x10 r j := by
  rw [val_main_v59_apply, val_main_v56_apply, val_main_v58_apply, val_main_v57_apply, upd_idx58, Ideal.addf_def]
  refine congrArg (· + x10 (ix1 j)) (Finset.sum_congr rfl fun k _ => ?_)
  rw [upd_lidx56, upd_ridx56]

/-- The lane sum of the hidden channels. -/
theorem upd_v60 (r : Fin 100000) :
    val_main_v60 (F := Ideal) x0 x1 x2 x3 x4 x5 x6 x7 x8 x9 x10 (ix1 r) = ∑ k : Fin 128, updHid x0 x1 x2 x3 x4 x5 x6 x7 x8 x9 x10 r k := by
  rw [val_main_v60_apply, val_main_cst_8_apply]
  refine (zero_word_add _).trans (Finset.sum_congr rfl fun k _ => ?_)
  rw [upd_idx60]
  exact upd_v59 x0 x1 x2 x3 x4 x5 x6 x7 x8 x9 x10 r k

/-- The mean of the hidden channels, as a column. -/
theorem upd_v63 (r : Fin 100000) (u : Fin 1) :
    val_main_v63 (F := Ideal) x0 x1 x2 x3 x4 x5 x6 x7 x8 x9 x10 (ix2 r u) = Cert.Spec.mean (updHid x0 x1 x2 x3 x4 x5 x6 x7 x8 x9 x10 r) := by
  rw [val_main_v63_apply, val_main_v61_apply, val_main_v62_apply, val_main_cst_9_apply, upd_idx61, upd_v60]
  rfl

/-- The deviation from the mean. -/
theorem upd_v65 (r : Fin 100000) (j : Fin 128) :
    val_main_v65 (F := Ideal) x0 x1 x2 x3 x4 x5 x6 x7 x8 x9 x10 (ix2 r j)
      = updHid x0 x1 x2 x3 x4 x5 x6 x7 x8 x9 x10 r j - Cert.Spec.mean (updHid x0 x1 x2 x3 x4 x5 x6 x7 x8 x9 x10 r) := by
  rw [val_main_v65_apply, val_main_v64_apply, upd_idx64, upd_v63, upd_v59]
  rfl

/-- The lane sum of the squared deviations. -/
theorem upd_v67 (r : Fin 100000) :
    val_main_v67 (F := Ideal) x0 x1 x2 x3 x4 x5 x6 x7 x8 x9 x10 (ix1 r) = ∑ k : Fin 128, updDev2 x0 x1 x2 x3 x4 x5 x6 x7 x8 x9 x10 r k := by
  rw [val_main_v67_apply, val_main_cst_10_apply]
  refine (zero_word_add _).trans (Finset.sum_congr rfl fun k _ => ?_)
  rw [upd_idx67, val_main_v66_apply, upd_v65]
  rfl

/-- The variance, as a column. -/
theorem upd_v70 (r : Fin 100000) (u : Fin 1) :
    val_main_v70 (F := Ideal) x0 x1 x2 x3 x4 x5 x6 x7 x8 x9 x10 (ix2 r u) = Cert.Spec.mean (updDev2 x0 x1 x2 x3 x4 x5 x6 x7 x8 x9 x10 r) := by
  rw [val_main_v70_apply, val_main_v68_apply, val_main_v69_apply, val_main_cst_11_apply, upd_idx68, upd_v67]
  rfl

/-- The inverse square root of the stabilised variance, as a column. -/
theorem upd_v75 (r : Fin 100000) (u : Fin 1) :
    val_main_v75 (F := Ideal) x0 x1 x2 x3 x4 x5 x6 x7 x8 x9 x10 (ix2 r u)
      = Ideal.rsqrt (Cert.Spec.mean (updDev2 x0 x1 x2 x3 x4 x5 x6 x7 x8 x9 x10 r) + Cert.Spec.eps) := by
  rw [val_main_v75_apply, val_main_v74_apply, val_main_v73_apply, val_main_cst_12_apply, upd_v70]
  rfl

/-- The normalised, scaled and shifted channel. -/
theorem upd_v83 (r : Fin 100000) (j : Fin 128) :
    val_main_v83 (F := Ideal) x0 x1 x2 x3 x4 x5 x6 x7 x8 x9 x10 x11 x12 (ix2 r j)
      = Cert.Spec.normed (updHid x0 x1 x2 x3 x4 x5 x6 x7 x8 x9 x10 r) (fun j : Fin 128 => x11 (ix1 j)) (fun j : Fin 128 => x12 (ix1 j)) j := by
  rw [val_main_v83_apply, val_main_v80_apply, val_main_v77_apply, val_main_v72_apply, val_main_v71_apply,
    val_main_v76_apply, val_main_v79_apply, val_main_v78_apply, val_main_v82_apply, val_main_v81_apply,
    upd_idx71, upd_idx76, upd_idx79, upd_idx82, upd_v63, upd_v75, upd_v59]
  rfl

/-- The activated channel. -/
theorem upd_v84 (r : Fin 100000) (j : Fin 128) :
    val_main_v84 (F := Ideal) x0 x1 x2 x3 x4 x5 x6 x7 x8 x9 x10 x11 x12 (ix2 r j)
      = Cert.Spec.act (updHid x0 x1 x2 x3 x4 x5 x6 x7 x8 x9 x10 r) (fun j : Fin 128 => x11 (ix1 j)) (fun j : Fin 128 => x12 (ix1 j)) j := by
  rw [val_main_v84_apply, val_main_call1_v5_apply, val_main_call1_v4_apply, val_main_call1_cst_0_apply,
    val_main_call1_v3_apply, val_main_call1_v2_apply, val_main_call1_cst_apply, val_main_call1_v1_apply,
    val_main_call1_v0_apply, upd_v83]
  exact silu_spelt _

/-- The update perceptron's output at row `r`, channel `q`, is the row function of the specification on row `r` of
    the array joining the node features with the aggregated messages. -/
theorem upd_v88 (r : Fin 100000) (q : Fin 64) :
    val_main_v88 (F := Ideal) x0 x1 x2 x3 x4 x5 x6 x7 x8 x9 x10 x11 x12 x13 x14 (ix2 r q)
      = Cert.Spec.mlpRow (fun k : Fin 192 => val_main_v55 (F := Ideal) x0 x1 x2 x3 x4 x5 x6 x7 x8 (ix2 r k)) (fun (k : Fin 192) (j : Fin 128) => x9 (ix2 k j))
          (fun j : Fin 128 => x10 (ix1 j)) (fun j : Fin 128 => x11 (ix1 j)) (fun j : Fin 128 => x12 (ix1 j))
          (fun (j : Fin 128) (i : Fin 64) => x13 (ix2 j i)) (fun i : Fin 64 => x14 (ix1 i)) q := by
  rw [val_main_v88_apply, val_main_v85_apply, val_main_v87_apply, val_main_v86_apply, upd_idx87, Ideal.addf_def]
  refine congrArg (· + x14 (ix1 q)) (Finset.sum_congr rfl fun k _ => ?_)
  rw [upd_lidx85, upd_ridx85, upd_v84]

/-- The final result at row `r`, channel `q`: the node feature plus the update perceptron's output. -/
theorem out_apply (r : Fin 100000) (q : Fin 64) :
    val_main_v89 (F := Ideal) x0 x1 x2 x3 x4 x5 x6 x7 x8 x9 x10 x11 x12 x13 x14 (ix2 r q)
      = x0 (ix2 r q)
        + Cert.Spec.mlpRow (fun k : Fin 192 => val_main_v55 (F := Ideal) x0 x1 x2 x3 x4 x5 x6 x7 x8 (ix2 r k)) (fun (k : Fin 192) (j : Fin 128) => x9 (ix2 k j))
          (fun j : Fin 128 => x10 (ix1 j)) (fun j : Fin 128 => x11 (ix1 j)) (fun j : Fin 128 => x12 (ix1 j))
          (fun (j : Fin 128) (i : Fin 64) => x13 (ix2 j i)) (fun i : Fin 64 => x14 (ix1 i)) q := by
  rw [val_main_v89_apply, Ideal.addf_def, upd_v88]

end Stages

end Cert.ReferenceIdeal.RefValue

end
-- ==== Proof.BridgeKI.lean ====
/-
  The kernel program's result array is the reference's result stage of the launch contents of the arguments.

  Region 0 leaves in its output array the message perceptron of every row of the array it was entered with; that
  array is the reference's concatenated array, so region 0's output is the reference's messages (both are the same row
  function, row by row). The second stretch turns messages into `aggIn` of them, on both sides. Region 1 leaves in its
  output array, at row r and column q, entry (r, q) of the array it was entered with plus the update perceptron of row
  r; the entered array is the node features and the aggregated messages side by side, whose entry (r, q) for q below 64
  is the node features' entry (r, q): this is the reference's last stage, the node features plus the update perceptron.
-/
import proofs.«138215_j42571715837967_1_alg».proof.Proof.HostKI
import proofs.«138215_j42571715837967_1_alg».proof.Proof.BlocksKI
import proofs.«138215_j42571715837967_1_alg».proof.Proof.RefMsg
import proofs.«138215_j42571715837967_1_alg».proof.Proof.RefUpd

noncomputable section

namespace Cert.KernelIdeal.TwoRegions

open Cert.KernelIdeal Cert.KernelIdeal.Gen
open Idealize.ShloMosaic Idealize.ShloMosaic.TcCoe Idealize.SL.Sem Idealize.ShloMosaic.ValueIdx

/-- Column `q` below 64 of a 64-column and a 128-column array laid side by side is the first array's column `q`. -/
theorem concat2_left {α : Type} (x0 : S100000x64.Idx → α) (y : S100000x128.Idx → α) (r : Fin 100000) (q : Fin 64) :
    concatenate S100000x192 1 [⟨S100000x64, x0⟩, ⟨S100000x128, y⟩] concatenates_S100000x64_S100000x128_S100000x192_d1
        (ix2 r (Fin.castLE (by decide : 64 ≤ 192) q)) = x0 (ix2 r q) :=
  concatenate_apply_piece (t := S100000x192) (1 : Fin 2) [⟨S100000x64, x0⟩, ⟨S100000x128, y⟩]
    concatenates_S100000x64_S100000x128_S100000x192_d1 (ix2 r (Fin.castLE (by decide : 64 ≤ 192) q)) 0 (by show 0 < 2; omega)
    S100000x64 x0 rfl rfl 0 rfl (ix2 r q)
    (fun b hb => match b, hb with | ⟨0, _⟩, _ => rfl | ⟨1, _⟩, hb => absurd rfl hb)
    (by show 0 + q.val = q.val; omega)

/-- Column `q` below 64 of the node features and the aggregated messages laid side by side is the node features'. -/
theorem aggIn_left (x0 : Arr S100000x64 .f32) (idx : Arr S800000 .i32) (M : Arr S800000x128 .f32)
    (r : Fin 100000) (q : Fin 64) :
    aggIn x0 idx M (ix2 r (Fin.castLE (by decide : 64 ≤ 192) q)) = x0 (ix2 r q) :=
  concat2_left _ _ r q

/-- The message perceptron of every row of the reference's concatenated array is the reference's messages. -/
theorem msgArr_ref (x0 : Arr S100000x64 .f32) (x1 : Arr S2x800000 .i32) (x2 : Arr S800000x32 .f32)
    (x3 : Arr S160x128 .f32) (x4 x5 x6 : Arr S128 .f32) (x7 : Arr S128x128 .f32) (x8 : Arr S128 .f32) :
    msgArr (Cert.ReferenceIdeal.Read.val_main_v18 (F := Ideal) x0 x1 x2) x3 x4 x5 x6 x7 x8
      = Cert.ReferenceIdeal.Read.val_main_v51 (F := Ideal) x0 x1 x2 x3 x4 x5 x6 x7 x8 := by
  funext i
  refine ((Cert.ReferenceIdeal.RefValue.msgs_apply x0 x1 x2 x3 x4 x5 x6 x7 x8 ⟨(i 0).val, idx2_lt0 i⟩ ⟨(i 1).val, idx2_lt1 i⟩).symm).trans ?_
  exact congrArg _ (eq_ix2 i).symm

/-- The update perceptron with its residual of every row of the reference's array of node features and aggregated
    messages is the reference's result. -/
theorem updArr_ref (x0 : Arr S100000x64 .f32) (x1 : Arr S2x800000 .i32) (x2 : Arr S800000x32 .f32)
    (x3 : Arr S160x128 .f32) (x4 x5 x6 : Arr S128 .f32) (x7 : Arr S128x128 .f32) (x8 : Arr S128 .f32)
    (x9 : Arr S192x128 .f32) (x10 x11 x12 : Arr S128 .f32) (x13 : Arr S128x64 .f32) (x14 : Arr S64 .f32) :
    updArr (Cert.ReferenceIdeal.Read.val_main_v55 (F := Ideal) x0 x1 x2 x3 x4 x5 x6 x7 x8) x9 x10 x11 x12 x13 x14
      = Cert.ReferenceIdeal.Read.val_main_v89 (F := Ideal) x0 x1 x2 x3 x4 x5 x6 x7 x8 x9 x10 x11 x12 x13 x14 := by
  funext i
  refine Eq.trans ?_ ((congrArg (Cert.ReferenceIdeal.Read.val_main_v89 (F := Ideal) x0 x1 x2 x3 x4 x5 x6 x7 x8 x9 x10 x11 x12 x13 x14) (eq_ix2 i)).symm)
  refine Eq.trans ?_ ((Cert.ReferenceIdeal.RefValue.out_apply x0 x1 x2 x3 x4 x5 x6 x7 x8 x9 x10 x11 x12 x13 x14 ⟨(i 0).val, idx2_lt0 i⟩ ⟨(i 1).val, idx2_lt1 i⟩).symm)
  show _ + _ = _ + _
  congr 1
  rw [ref_v55]
  exact aggIn_left _ _ _ _ _

variable (m : (ℓ : Loc nD τ sig) → Buf (Elt Ideal) ℓ) (ρ : Dev nD → PrngReg) (c : Dev nD)

/-- Region 0 leaves the reference's messages of the launch contents in its output array. -/
theorem exit0_v19 : (W2 m ρ c (Proc.devRef .tc main_v19) : Arr S800000x128 .f32)
    = Cert.ReferenceIdeal.Read.val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 7).trans ((final0 m ρ c).trans ?_)
  rw [E1_v18 m ρ c, E1_of m ρ c main_arg3 (by decide), E1_of m ρ c main_arg4 (by decide), E1_of m ρ c main_arg5 (by decide),
    E1_of m ρ c main_arg6 (by decide), E1_of m ρ c main_arg7 (by decide), E1_of m ρ c main_arg8 (by decide)]
  exact msgArr_ref _ _ _ _ _ _ _ _ _

/-- THE RESULT: after the run the result array holds the reference's result stage of the launch contents. -/
theorem exit1_v24 : (W4 m ρ c (Proc.devRef .tc main_v24) : Arr S100000x64 .f32)
    = Cert.ReferenceIdeal.Read.val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W4_arr m ρ c 7).trans ((final1 m ρ c).trans ?_)
  rw [E3_v23 m ρ c, exit0_v19 m ρ c, W2_of m ρ c main_arg0 (by decide) (by decide),
    (W2_of_ne m ρ c main_v3 (by decide)).trans (W1_v3 m ρ c),
    E3_of m ρ c main_arg9 (by decide) (by decide) (by decide), E3_of m ρ c main_arg10 (by decide) (by decide) (by decide),
    E3_of m ρ c main_arg11 (by decide) (by decide) (by decide), E3_of m ρ c main_arg12 (by decide) (by decide) (by decide),
    E3_of m ρ c main_arg13 (by decide) (by decide) (by decide), E3_of m ρ c main_arg14 (by decide) (by decide) (by decide),
    ← ref_v55]
  exact updArr_ref _ _ _ _ _ _ _ _ _ _ _ _ _ _ _

end Cert.KernelIdeal.TwoRegions

end
-- ==== Proof.lean ====
/-
  The certificate of the message-passing layer: a kernel program of two pipelined perceptron kernels among host
  gathers, a scatter-add and concatenations, against a reference that is host operations only.

  Frames. The kernel program, at the word-level instance and at the exact one, runs to the end from any memory, faults
  nowhere and leaves its fifteen argument arrays as launched: the two-region run of Proof/FrameK.lean and
  Proof/FrameKI.lean (one text, at any float instance). The reference's frame is its generated run with the result
  dropped. The idealization rewrote nothing, so its conjunct is trivial.

  Values. At the exact values the kernel program's result array ends at the reference's result stage of the launch
  contents of the arguments (Proof/BridgeKI.lean): the host stretches are the reference's own first stages; each
  region leaves in its output array, row by row, the same row function of the array it was entered with as the
  reference's stages compute on the whole array (a matrix product, a row mean and variance as quotients by 128, the
  inverse square root, a scale and a shift, x ↦ x · logistic x, a second matrix product; the residual sum in the second
  region) — sums over the extended reals in which no order and no rounding is left, so the two agree whatever the
  inputs are, and the precondition is not used. The reference's run ends at the same stage of its own launch contents,
  which agree with the kernel program's on the arguments.
-/
import proofs.«138215_j42571715837967_1_alg».proof.Defs
import proofs.«138215_j42571715837967_1_alg».proof.Proof.Gen.Kernel
import proofs.«138215_j42571715837967_1_alg».proof.Proof.Gen.KernelIdeal
import proofs.«138215_j42571715837967_1_alg».proof.Proof.Gen.ReferenceIdeal
import proofs.«138215_j42571715837967_1_alg».proof.Proof.Gen.ReferenceIdeal.Run
import proofs.«138215_j42571715837967_1_alg».proof.Proof.Gen.ReferenceIdeal.Read
import proofs.«138215_j42571715837967_1_alg».proof.Proof.Gen.Pre_finite_inputs
import proofs.«138215_j42571715837967_1_alg».proof.Proof.FrameK
import proofs.«138215_j42571715837967_1_alg».proof.Proof.FrameKI
import proofs.«138215_j42571715837967_1_alg».proof.Proof.BridgeKI
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.TwoRegions.frame m ρ

theorem frame_ki : Cert.frame_KernelIdeal := fun m ρ _ => Cert.KernelIdeal.TwoRegions.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the kernel program's launch contents in their result
    arrays, and their arguments unchanged. -/
theorem algebraic : Cert.algebraic_KernelIdeal_ReferenceIdeal := by
  intro m ρ m' ρ' _ hagree
  refine ⟨fun c => Cert.ReferenceIdeal.Read.val_main_v89 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · refine (θ_run Cert.KernelIdeal.defs _ _).mono (fun r h c => ?_) (Cert.KernelIdeal.TwoRegions.run_all m ρ)
    exact ⟨(h c _ (Cert.KernelIdeal.TwoRegions.mem_uc Cert.KernelIdeal.main_v24 (by decide))).trans (Cert.KernelIdeal.TwoRegions.exit1_v24 m ρ c),
      (h c _ (Cert.KernelIdeal.TwoRegions.mem_uc Cert.KernelIdeal.main_arg0 (by decide))).trans (Cert.KernelIdeal.TwoRegions.W4_main_arg0 m ρ c),
      (h c _ (Cert.KernelIdeal.TwoRegions.mem_uc Cert.KernelIdeal.main_arg1 (by decide))).trans (Cert.KernelIdeal.TwoRegions.W4_main_arg1 m ρ c),
      (h c _ (Cert.KernelIdeal.TwoRegions.mem_uc Cert.KernelIdeal.main_arg2 (by decide))).trans (Cert.KernelIdeal.TwoRegions.W4_main_arg2 m ρ c),
      (h c _ (Cert.KernelIdeal.TwoRegions.mem_uc Cert.KernelIdeal.main_arg3 (by decide))).trans (Cert.KernelIdeal.TwoRegions.W4_main_arg3 m ρ c),
      (h c _ (Cert.KernelIdeal.TwoRegions.mem_uc Cert.KernelIdeal.main_arg4 (by decide))).trans (Cert.KernelIdeal.TwoRegions.W4_main_arg4 m ρ c),
      (h c _ (Cert.KernelIdeal.TwoRegions.mem_uc Cert.KernelIdeal.main_arg5 (by decide))).trans (Cert.KernelIdeal.TwoRegions.W4_main_arg5 m ρ c),
      (h c _ (Cert.KernelIdeal.TwoRegions.mem_uc Cert.KernelIdeal.main_arg6 (by decide))).trans (Cert.KernelIdeal.TwoRegions.W4_main_arg6 m ρ c),
      (h c _ (Cert.KernelIdeal.TwoRegions.mem_uc Cert.KernelIdeal.main_arg7 (by decide))).trans (Cert.KernelIdeal.TwoRegions.W4_main_arg7 m ρ c),
      (h c _ (Cert.KernelIdeal.TwoRegions.mem_uc Cert.KernelIdeal.main_arg8 (by decide))).trans (Cert.KernelIdeal.TwoRegions.W4_main_arg8 m ρ c),
      (h c _ (Cert.KernelIdeal.TwoRegions.mem_uc Cert.KernelIdeal.main_arg9 (by decide))).trans (Cert.KernelIdeal.TwoRegions.W4_main_arg9 m ρ c),
      (h c _ (Cert.KernelIdeal.TwoRegions.mem_uc Cert.KernelIdeal.main_arg10 (by decide))).trans (Cert.KernelIdeal.TwoRegions.W4_main_arg10 m ρ c),
      (h c _ (Cert.KernelIdeal.TwoRegions.mem_uc Cert.KernelIdeal.main_arg11 (by decide))).trans (Cert.KernelIdeal.TwoRegions.W4_main_arg11 m ρ c),
      (h c _ (Cert.KernelIdeal.TwoRegions.mem_uc Cert.KernelIdeal.main_arg12 (by decide))).trans (Cert.KernelIdeal.TwoRegions.W4_main_arg12 m ρ c),
      (h c _ (Cert.KernelIdeal.TwoRegions.mem_uc Cert.KernelIdeal.main_arg13 (by decide))).trans (Cert.KernelIdeal.TwoRegions.W4_main_arg13 m ρ c),
      (h c _ (Cert.KernelIdeal.TwoRegions.mem_uc Cert.KernelIdeal.main_arg14 (by decide))).trans (Cert.KernelIdeal.TwoRegions.W4_main_arg14 m ρ c)⟩
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10, h11, h12, h13, h14⟩ := hagree c
    rw [Cert.ReferenceIdeal.Read.val_main_v89_eq, h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
